-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S16384 : Shape := ⟨1, ![16384]⟩
abbrev S1000x512 : Shape := ⟨2, ![1000, 512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S1000x512 : S_.BroadcastsInDim S1000x512 (![] : Fin 0 → Fin S1000x512.rank)
  reducesTo_S1000x512_S_d0_1 : S1000x512.ReducesTo [0, 1] S_

variable [Facts]

def fn {F : FTy → Type} [FloatOps F] (main_arg0 : FVec F S16384x512 .f32) (main_arg1 : IVec S16384 32) (main_arg2 : FVec F S1000x512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S1000x512 .f32 := Host.absf main_arg2
  let main_cst_0 : FVec F S_ .f32 := constant S_ .f32 0x7F800000#32
  let main_v5 : FVec F S1000x512 .f32 := broadcastInDim S1000x512 ![] bcast_S_S1000x512 main_cst_0
  let main_v6 : IVec S1000x512 1 := cmpf .olt main_v4 main_v5
  let main_c_1 : IVec S_ 1 := constantI S_ 1 1#1
  let main_v7 : IVec S_ 1 := (fun x v => Host.reduce IntOp.andi x v reducesTo_S1000x512_S_d0_1 h_S_) main_v6 main_c_1
  let main_v8 : IVec S_ 1 := andi main_v3 main_v7
  main_v8
-- ==== Kernel.lean ====
abbrev S16384x512 : Shape := ⟨2, ![16384, 512]⟩
abbrev S16384 : Shape := ⟨1, ![16384]⟩
abbrev S1000x512 : Shape := ⟨2, ![1000, 512]⟩
abbrev S16384x1 : Shape := ⟨2, ![16384, 1]⟩
abbrev S_ : Shape := ⟨0, ![]⟩
abbrev S1000 : Shape := ⟨1, ![1000]⟩
abbrev S1x1000 : Shape := ⟨2, ![1, 1000]⟩
abbrev S16x128 : Shape := ⟨2, ![16, 128]⟩
abbrev S1024x512 : Shape := ⟨2, ![1024, 512]⟩
abbrev S1024x1 : Shape := ⟨2, ![1024, 1]⟩
abbrev S8x128 : Shape := ⟨2, ![8, 128]⟩
abbrev S512x1000 : Shape := ⟨2, ![512, 1000]⟩
abbrev S1024x1000 : Shape := ⟨2, ![1024, 1000]⟩
abbrev S1024 : Shape := ⟨1, ![1024]⟩
abbrev S1 : Shape := ⟨1, ![1]⟩
abbrev S1x1 : Shape := ⟨2, ![1, 1]⟩

abbrev nBuf : Space → Nat
  | .hbm => 13
  | .vmem => 8
  | .smem => 0
  | _ => 0

abbrev bufTy : (tb : Table) → Fin (tcTables nBuf tb) → BufTy
  | .hbm, ⟨0, _⟩ => ⟨S16384x512, .f32⟩
  | .hbm, ⟨1, _⟩ => ⟨S16384, .i32⟩
  | .hbm, ⟨2, _⟩ => ⟨S1000x512, .f32⟩
  | .hbm, ⟨3, _⟩ => ⟨S16384x1, .i32⟩
  | .hbm, ⟨4, _⟩ => ⟨S1000x512, .f32⟩
  | .hbm, ⟨5, _⟩ => ⟨S_, .f32⟩
  | .hbm, ⟨6, _⟩ => ⟨S1000, .f32⟩
  | .hbm, ⟨7, _⟩ => ⟨S1x1000, .f32⟩
  | .hbm, ⟨8, _⟩ => ⟨S16x128, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .local _ .vmem, ⟨0, _⟩ => ⟨S1024x512, .f32⟩
  | .local _ .vmem, ⟨1, _⟩ => ⟨S1024x512, .f32⟩
  | .local _ .vmem, ⟨2, _⟩ => ⟨S1000x512, .f32⟩
  | .local _ .vmem, ⟨3, _⟩ => ⟨S1x1000, .f32⟩
  | .local _ .vmem, ⟨4, _⟩ => ⟨S1024x1, .i32⟩
  | .local _ .vmem, ⟨5, _⟩ => ⟨S1024x1, .i32⟩
  | .local _ .vmem, ⟨6, _⟩ => ⟨S8x128, .f32⟩
  | .local _ .vmem, ⟨7, _⟩ => ⟨S8x128, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1000x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S16384_S16384x1 : S16384.ShapeCasts S16384x1
  reducesTo_S1000x512_S1000_d1 : S1000x512.ReducesTo [1] S1000
  h_S_ : 0 < S_.numel
  bcast_S1000_S1x1000_1 : S1000.BroadcastsInDim S1x1000 (![1] : Fin 1 → Fin S1x1000.rank)
  inb_S8x128_S8x128_0_0 : ∀ a, (![0, 0] : Fin 2 → Nat) a + S8x128.size a ≤ S8x128.size a
  h_S8x128 : 0 < S8x128.numel
  inb_S1024x512_S1024x512_0_0 : ∀ a, (![0, 0] : Fin 2 → Nat) a + S1024x512.size a ≤ S1024x512.size a
  h_S1024x512 : 0 < S1024x512.numel
  inb_S1000x512_S1000x512_0_0 : ∀ a, (![0, 0] : Fin 2 → Nat) a + S1000x512.size a ≤ S1000x512.size a
  h_S1000x512 : 0 < S1000x512.numel
  inb_S1x1000_S1x1000_0_0 : ∀ a, (![0, 0] : Fin 2 → Nat) a + S1x1000.size a ≤ S1x1000.size a
  h_S1x1000 : 0 < S1x1000.numel
  shapeCasts_S1x1000_S1x1000 : S1x1000.ShapeCasts S1x1000
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  bitsLt_bf16_f32 : FTy.bits .bf16 < FTy.bits .f32
  transposes_S1000x512_p1_0_S512x1000 : S1000x512.Transposes [1, 0] S512x1000
  reduces_S1024x512_S1024 : S1024x512.Reduces [1] S1024
  shapeCasts_S1024_S1024x1 : S1024.ShapeCasts S1024x1
  broadcasts_S1024x1_S1024x1000 : S1024x1.Broadcasts S1024x1000
  broadcasts_S1x1000_S1024x1000 : S1x1000.Broadcasts S1024x1000
  iota_S1x1000_d1_w32 : S1x1000.Iotas .tc 32 [1]
  reduces_S1024x1000_S1024 : S1024x1000.Reduces [1] S1024
  reduces_S1024x1_S1 : S1024x1.Reduces [0] S1
  shapeCasts_S1_S1x1 : S1.ShapeCasts S1x1
  inb_S8x128_S1x1_0_0 : ∀ a, (![0, 0] : Fin 2 → Nat) a + S1x1.size a ≤ S8x128.size a
  h_S1x1 : 0 < S1x1.numel
  shapeCasts_S1x1_S1x1 : S1x1.ShapeCasts S1x1
  reducesTo_S16x128_S_d0_1 : S16x128.ReducesTo [0, 1] S_
  dot_S1024x512_S512x1000_S1024x1000_1_0_0_1_n_n_wf : DotDims.WF S1024x512 S512x1000 S1024x1000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x512.size a
  hwx0_0 : ∀ i : grid0.Coords, EltTy.bits .f32 = 32 ∨ (Rect.block (s := S16384x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1000x512.size a ≤ S1000x512.size a
  hwx0_1 : ∀ i : grid0.Coords, EltTy.bits .f32 = 32 ∨ (Rect.block (s := S1000x512) S1000x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1000.size a ≤ S1x1000.size a
  hwx0_2 : ∀ i : grid0.Coords, EltTy.bits .f32 = 32 ∨ (Rect.block (s := S1x1000) S1x1000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S16384x1.size a
  hwx0_3 : ∀ i : grid0.Coords, EltTy.bits .i32 = 32 ∨ (Rect.block (s := S16384x1) S1024x1.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x128.size a ≤ S16x128.size a
  hwx0_4 : ∀ i : grid0.Coords, EltTy.bits .f32 = 32 ∨ (Rect.block (s := S16x128) S8x128.size (cc0_transform_4 i) (hinb0_4 i)).WholeWords (EltTy.packing .f32)

variable [Facts₀]

def dot_S1024x512_S512x1000_S1024x1000_1_0_0_1_n_n : DotDims S1024x512 S512x1000 S1024x1000 where
  lhsContracting := [1]
  rhsContracting := [0]
  lhsNonContracting := [0]
  rhsNonContracting := [1]
  lhsBatch := []
  rhsBatch := []
  wf := dot_S1024x512_S512x1000_S1024x1000_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1000x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1000.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x512 : Shape := ⟨2, ![16384, 512]⟩
abbrev S16384 : Shape := ⟨1, ![16384]⟩
abbrev S1000x512 : Shape := ⟨2, ![1000, 512]⟩
abbrev S_ : Shape := ⟨0, ![]⟩
abbrev S16384x1 : Shape := ⟨2, ![16384, 1]⟩
abbrev S1000 : Shape := ⟨1, ![1000]⟩
abbrev S1x1000 : Shape := ⟨2, ![1, 1000]⟩
abbrev S16384x1000 : Shape := ⟨2, ![16384, 1000]⟩
abbrev S512x1000 : Shape := ⟨2, ![512, 1000]⟩

abbrev nBuf : Space → Nat
  | .hbm => 40
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384, .i32⟩
  | .hbm, ⟨2, _⟩ => ⟨S1000x512, .f32⟩
  | .hbm, ⟨3, _⟩ => ⟨S16384x512, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S1000x512, .f32⟩
  | .hbm, ⟨8, _⟩ => ⟨S_, .f32⟩
  | .hbm, ⟨9, _⟩ => ⟨S1000, .f32⟩
  | .hbm, ⟨10, _⟩ => ⟨S1x1000, .f32⟩
  | .hbm, ⟨11, _⟩ => ⟨S16384x1000, .f32⟩
  | .hbm, ⟨12, _⟩ => ⟨S16384x1000, .f32⟩
  | .hbm, ⟨13, _⟩ => ⟨S16384x1000, .f32⟩
  | .hbm, ⟨14, _⟩ => ⟨S512x1000, .f32⟩
  | .hbm, ⟨15, _⟩ => ⟨S16384x1000, .f32⟩
  | .hbm, ⟨16, _⟩ => ⟨S_, .f32⟩
  | .hbm, ⟨17, _⟩ => ⟨S16384x1000, .f32⟩
  | .hbm, ⟨18, _⟩ => ⟨S16384x1000, .f32⟩
  | .hbm, ⟨19, _⟩ => ⟨S16384x1000, .f32⟩
  | .hbm, ⟨20, _⟩ => ⟨S16384x1, .i32⟩
  | .hbm, ⟨21, _⟩ => ⟨S1000, .i32⟩
  | .hbm, ⟨22, _⟩ => ⟨S1x1000, .i32⟩
  | .hbm, ⟨23, _⟩ => ⟨S16384x1000, .i32⟩
  | .hbm, ⟨24, _⟩ => ⟨S16384x1000, .i32⟩
  | .hbm, ⟨25, _⟩ => ⟨S16384x1000, .i1⟩
  | .hbm, ⟨26, _⟩ => ⟨S16384x1000, .f32⟩
  | .hbm, ⟨27, _⟩ => ⟨S16384x1000, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S16384x1000, .f32⟩
  | .hbm, ⟨32, _⟩ => ⟨S16384x1000, .f32⟩
  | .hbm, ⟨33, _⟩ => ⟨S_, .f32⟩
  | .hbm, ⟨34, _⟩ => ⟨S16384x1000, .f32⟩
  | .hbm, ⟨35, _⟩ => ⟨S16384x1000, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩

abbrev nD : Nat := 1
abbrev τ : Topo := Topo.v7x

variable {F : FTy → Type} [FloatOps F]

class Facts₀ : Prop where
  reducesTo_S16384x512_S16384_d1 : S16384x512.ReducesTo [1] S16384
  h_S_ : 0 < S_.numel
  bcast_S16384_S16384x1_0 : S16384.BroadcastsInDim S16384x1 (![0] : Fin 1 → Fin S16384x1.rank)
  reducesTo_S1000x512_S1000_d1 : S1000x512.ReducesTo [1] S1000
  bcast_S1000_S1x1000_1 : S1000.BroadcastsInDim S1x1000 (![1] : Fin 1 → Fin S1x1000.rank)
  bcast_S16384x1_S16384x1000_0_1 : S16384x1.BroadcastsInDim S16384x1000 (![0, 1] : Fin 2 → Fin S16384x1000.rank)
  bcast_S1x1000_S16384x1000_0_1 : S1x1000.BroadcastsInDim S16384x1000 (![0, 1] : Fin 2 → Fin S16384x1000.rank)
  transposes_S1000x512_S512x1000_1_0 : S1000x512.Transposes [1, 0] S512x1000
  bcast_S_S16384x1000 : S_.BroadcastsInDim S16384x1000 (![] : Fin 0 → Fin S16384x1000.rank)
  reducesTo_S16384x1000_S_d0_1 : S16384x1000.ReducesTo [0, 1] S_
  dot_S16384x512_S512x1000_S16384x1000_1_0_0_1_n_n_wf : DotDims.WF S16384x512 S512x1000 S16384x1000 [1] [0] [0] [1] [] []

variable [Facts₀]

def dot_S16384x512_S512x1000_S16384x1000_1_0_0_1_n_n : DotDims S16384x512 S512x1000 S16384x1000 where
  lhsContracting := [1]
  rhsContracting := [0]
  lhsNonContracting := [0]
  rhsNonContracting := [1]
  lhsBatch := []
  rhsBatch := []
  wf := dot_S16384x512_S512x1000_S16384x1000_1_0_0_1_n_n_wf

class Facts : Prop extends Facts₀ where

variable [Facts]
-- ==== Proof.Pieces.lean ====
/-
  What one step of the kernel leaves in the core's 8×128 output block.

  On the first step of a core's row of the grid the body fills the block with the zero word, reads the origin back and
  writes there the zero word plus the tile's total; on a later step it reads the origin and writes it back plus the tile's
  total, touching nothing else.  So after any step every entry but the origin is what it was (or zero), and the origin has
  gained the tile's total.
-/
import proofs.«133789_j37495064494859_2_alg».proof.Proof.Gen.KernelIdeal.Frame
import Idealize.ShloMosaic.Lib.Pipeline.Value
import Idealize.ShloMosaic.Lib.ValueIdx
import Idealize.ShloMosaic.Lib.Tactic
import Idealize.ShloMosaic.Lib.WritesUnit

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- The origin of the 8×128 block read through the 1×1 rectangle at the origin. -/
theorem origin_idx : (Rect.unit (s := S8x128) ![0, 0] S1x1.size inb_S8x128_S1x1_0_0).idx (ix2 (0 : Fin 1) (0 : Fin 1)) = ix2 (0 : Fin 8) (0 : Fin 128) :=
  funext fun a => Fin.ext (by match a with | ⟨0, _⟩ => rfl | ⟨1, _⟩ => rfl)

/-- A load through the 1×1 rectangle at the origin reads the block's origin. -/
theorem ld_origin (X : Vec F S8x128 .f32) :
    View.ld (Val := Elt F) X (Rect.unit (s := S8x128) ![0, 0] S1x1.size inb_S8x128_S1x1_0_0) = fun _ => X (ix2 0 0) := by
  funext x
  show X ((Rect.unit (s := S8x128) ![0, 0] S1x1.size inb_S8x128_S1x1_0_0).idx x) = _
  congr 1
  funext a
  apply Fin.ext
  have h0 : (x 0).val < 1 := (x 0).isLt
  have h1 : (x 1).val < 1 := (x 1).isLt
  match a with
  | ⟨0, _⟩ => show 0 + 1 * (x 0).val = 0; omega
  | ⟨1, _⟩ => show 0 + 1 * (x 1).val = 0; omega

/-- Reading the origin back after the whole block was filled with the zero word gives the zero word. -/
theorem readback_zero (v : View sig .tc .vmem S8x128 .f32) :
    v.readCov [(⟨Rect.unit ![0, 0] S8x128.size inb_S8x128_S8x128_0_0, k0_pay2 (F := F)⟩ : View.Piece (Elt F) S8x128 .f32)]
      (Rect.unit (s := S8x128) ![0, 0] S1x1.size inb_S8x128_S1x1_0_0).toLoadRect = fun _ => Scalar.ofBits .f32 0x00000000#32 := by
  rw [View.readCov_eq_canon _ _ _ (fun j => ⟨_, List.mem_singleton_self _, View.mem_set_unit_zero hz inb_S8x128_S8x128_0_0 _⟩), View.canon_unit_zero hz]
  rfl

/-- On a first step of a row of the grid the block's origin ends at the zero word plus the tile's total. -/
theorem outA_origin (c : Dev nD) (i : grid0.Coords) (arg2 : Memref sig .tc .vmem S1024x512 .f32) (harg2 : arg2.IsWhole) (arg3 : Memref sig .tc .vmem S1000x512 .f32) (harg3 : arg3.IsWhole) (arg4 : Memref sig .tc .vmem S1x1000 .f32) (harg4 : arg4.IsWhole) (arg5 : Memref sig .tc .vmem S1024x1 .i32) (harg5 : arg5.IsWhole) (arg6 : Memref sig .tc .vmem S8x128 .f32) (harg6 : arg6.IsWhole) (hc0 : cond0_0 i)
    (x0 : Vec F S1024x512 .f32) (x1 : Vec F S1000x512 .f32) (x2 : Vec F S1x1000 .f32) (x3 : Vec F S1024x1 .i32) :
    out0_A_4 c i arg2 harg2 arg3 harg3 arg4 harg4 arg5 harg5 arg6 harg6 hc0 x0 x1 x2 x3 (ix2 0 0) = k0_pay1 (k0_pay3 x0 x1 x2 x3) (fun _ => Scalar.ofBits .f32 0x00000000#32) (ix2 0 0) := by
  unfold out0_A_4
  unfold kernelRun0_A
  dsimp only
  sl_unfold_words
  refine (View.read_writes_cons_unit_of_mem _ _ _ _ _ (ix2 0 0) (ix2 (0 : Fin 1) (0 : Fin 1)) rfl (fun a => by fin_cases a <;> rfl)).trans ?_
  simp only [View.readAt_eq_ld, harg2.read_unread, harg3.read_unread, harg4.read_unread, harg5.read_unread,
    View.ld_unit_zero (S := S1024x512) hz, View.ld_unit_zero (S := S1000x512) hz, View.ld_unit_zero (S := S1x1000) hz, View.ld_unit_zero (S := S1024x1) hz]
  exact congrArg (fun v => k0_pay1 (k0_pay3 x0 x1 x2 x3) v (ix2 0 0)) (readback_zero _)

/-- and every other entry of the block at the zero word. -/
theorem outA_off (c : Dev nD) (i : grid0.Coords) (arg2 : Memref sig .tc .vmem S1024x512 .f32) (harg2 : arg2.IsWhole) (arg3 : Memref sig .tc .vmem S1000x512 .f32) (harg3 : arg3.IsWhole) (arg4 : Memref sig .tc .vmem S1x1000 .f32) (harg4 : arg4.IsWhole) (arg5 : Memref sig .tc .vmem S1024x1 .i32) (harg5 : arg5.IsWhole) (arg6 : Memref sig .tc .vmem S8x128 .f32) (harg6 : arg6.IsWhole) (hc0 : cond0_0 i)
    (x0 : Vec F S1024x512 .f32) (x1 : Vec F S1000x512 .f32) (x2 : Vec F S1x1000 .f32) (x3 : Vec F S1024x1 .i32)
    (y : S8x128.Idx) (hy : (y 0).val ≠ 0 ∨ (y 1).val ≠ 0) :
    out0_A_4 c i arg2 harg2 arg3 harg3 arg4 harg4 arg5 harg5 arg6 harg6 hc0 x0 x1 x2 x3 y = Scalar.ofBits .f32 0x00000000#32 := by
  unfold out0_A_4
  unfold kernelRun0_A
  dsimp only
  sl_unfold_words
  have hmiss : ∃ a : Fin 2, (y a).val < (![0, 0] : Fin 2 → Nat) a ∨ (![0, 0] : Fin 2 → Nat) a + (![1, 1] : Fin 2 → Nat) a ≤ (y a).val := by
    rcases hy with h | h
    · exact ⟨0, Or.inr (by show 0 + 1 ≤ (y 0).val; omega)⟩
    · exact ⟨1, Or.inr (by show 0 + 1 ≤ (y 1).val; omega)⟩
  obtain ⟨a, ha⟩ := hmiss
  refine (View.read_writes_cons_unit_of_not_mem _ _ _ _ _ y rfl a ha).trans ?_
  exact (View.read_writes_cons_unit_of_mem _ _ _ _ _ y y rfl (fun a => by
    match a with
    | ⟨0, _⟩ => show (y 0).val = 0 + (y 0).val; omega
    | ⟨1, _⟩ => show (y 1).val = 0 + (y 1).val; omega)).trans rfl

/-- On a later step the origin ends at what it held plus the tile's total, -/
theorem outB_origin (c : Dev nD) (i : grid0.Coords) (arg2 : Memref sig .tc .vmem S1024x512 .f32) (harg2 : arg2.IsWhole) (arg3 : Memref sig .tc .vmem S1000x512 .f32) (harg3 : arg3.IsWhole) (arg4 : Memref sig .tc .vmem S1x1000 .f32) (harg4 : arg4.IsWhole) (arg5 : Memref sig .tc .vmem S1024x1 .i32) (harg5 : arg5.IsWhole) (arg6 : Memref sig .tc .vmem S8x128 .f32) (harg6 : arg6.IsWhole) (hc0 : ¬cond0_0 i)
    (x0 : Vec F S1024x512 .f32) (x1 : Vec F S1000x512 .f32) (x2 : Vec F S1x1000 .f32) (x3 : Vec F S1024x1 .i32) (xo4 : Vec F S8x128 .f32) :
    out0_B_4 c i arg2 harg2 arg3 harg3 arg4 harg4 arg5 harg5 arg6 harg6 hc0 x0 x1 x2 x3 xo4 (ix2 0 0) = k0_pay1 (k0_pay3 x0 x1 x2 x3) (fun _ => xo4 (ix2 0 0)) (ix2 0 0) := by
  unfold out0_B_4
  unfold kernelRun0_B
  dsimp only
  sl_unfold_words
  refine (View.read_writes_cons_unit_of_mem _ _ _ _ _ (ix2 0 0) (ix2 (0 : Fin 1) (0 : Fin 1)) rfl (fun a => by fin_cases a <;> rfl)).trans ?_
  simp only [View.readAt_eq_ld, harg2.read_unread, harg3.read_unread, harg4.read_unread, harg5.read_unread, harg6.read_unread,
    View.ld_unit_zero (S := S1024x512) hz, View.ld_unit_zero (S := S1000x512) hz, View.ld_unit_zero (S := S1x1000) hz, View.ld_unit_zero (S := S1024x1) hz]
  exact congrArg (fun v => k0_pay1 (k0_pay3 x0 x1 x2 x3) v (ix2 0 0)) (ld_origin xo4)

/-- and every other entry is left as it was. -/
theorem outB_off (c : Dev nD) (i : grid0.Coords) (arg2 : Memref sig .tc .vmem S1024x512 .f32) (harg2 : arg2.IsWhole) (arg3 : Memref sig .tc .vmem S1000x512 .f32) (harg3 : arg3.IsWhole) (arg4 : Memref sig .tc .vmem S1x1000 .f32) (harg4 : arg4.IsWhole) (arg5 : Memref sig .tc .vmem S1024x1 .i32) (harg5 : arg5.IsWhole) (arg6 : Memref sig .tc .vmem S8x128 .f32) (harg6 : arg6.IsWhole) (hc0 : ¬cond0_0 i)
    (x0 : Vec F S1024x512 .f32) (x1 : Vec F S1000x512 .f32) (x2 : Vec F S1x1000 .f32) (x3 : Vec F S1024x1 .i32) (xo4 : Vec F S8x128 .f32)
    (y : S8x128.Idx) (hy : (y 0).val ≠ 0 ∨ (y 1).val ≠ 0) :
    out0_B_4 c i arg2 harg2 arg3 harg3 arg4 harg4 arg5 harg5 arg6 harg6 hc0 x0 x1 x2 x3 xo4 y = xo4 y := by
  unfold out0_B_4
  unfold kernelRun0_B
  dsimp only
  sl_unfold_words
  have hmiss : ∃ a : Fin 2, (y a).val < (![0, 0] : Fin 2 → Nat) a ∨ (![0, 0] : Fin 2 → Nat) a + (![1, 1] : Fin 2 → Nat) a ≤ (y a).val := by
    rcases hy with h | h
    · exact ⟨0, Or.inr (by show 0 + 1 ≤ (y 0).val; omega)⟩
    · exact ⟨1, Or.inr (by show 0 + 1 ≤ (y 1).val; omega)⟩
  obtain ⟨a, ha⟩ := hmiss
  refine (View.read_writes_cons_unit_of_not_mem _ _ _ _ _ y rfl a ha).trans ?_
  rw [View.writes_nil, harg6.read_unread]

end Cert.KernelIdeal.Pieces

end
-- ==== Proof.Accum.lean ====
/-
  The running total in a core's output block.

  Every step adds its tile's total to the block's origin; the first step of a core's eight starts from zero.  By induction
  on the grid point the origin holds the sum of the totals of the tiles the core has seen so far, and every other entry of
  the block is zero.  After a core's last step the origin holds the sum of its eight tiles' totals.
-/
import proofs.«133789_j37495064494859_2_alg».proof.Proof.Pieces
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Accum

open Cert.KernelIdeal Cert.KernelIdeal.Gen Cert.KernelIdeal.Pieces

variable (m : (ℓ : Loc nD τ sig) → Buf (Elt Ideal) ℓ)

/-- The store's value at the origin: what the origin held plus the tile's total. -/
theorem pay1_origin (v35 : FVec Ideal S1x1 .f32) (v36 : Vec Ideal S1x1 .f32) :
    k0_pay1 (F := Ideal) v35 v36 (ix2 0 0) = v36 (ix2 0 0) + v35 (ix2 0 0) := by
  unfold k0_pay1
  show (addf (shapeCast S1x1 v36 shapeCasts_S1x1_S1x1) v35) (ix2 0 0) = _
  rw [shapeCast_self]
  rfl

/-- The total of the tile the grid point `t` works on: the body's arithmetic of the point's four input blocks. -/
def tileTot (c : Dev nD) (t : Fin cfg0.N) : EReal :=
  k0_pay3 (F := Ideal) (iblk m c 0 t) (iblk m c 1 t) (iblk m c 2 t) (iblk m c 3 t) (ix2 0 0)

/-- An entry of the block other than the origin. -/
abbrev Off (y : S8x128.Idx) : Prop := (y 0).val ≠ 0 ∨ (y 1).val ≠ 0

/-- A first step of a core: the origin is the tile's total, every other entry zero. -/
theorem step_first (c : Dev nD) (t : Fin cfg0.N) (h0 : t.val % 8 = 0) :
    outsAt0 m c t.val t.isLt (ix2 0 0) = 0 + tileTot m c t ∧ ∀ y, Off y → outsAt0 m c t.val t.isLt y = 0 := by
  rw [outsAt0_A m c t h0]
  refine ⟨?_, fun y hy => ?_⟩
  · refine (outA_origin (F := Ideal) c (grid0.coords t) (ms0_0 t) (hs0_0 t) (ms0_1 t) (hs0_1 t) (ms0_2 t) (hs0_2 t) (ms0_3 t) (hs0_3 t) (ms0_4 t) (hs0_4 t)
      ((hcond0_0 t).mpr h0) (iblk m c 0 t) (iblk m c 1 t) (iblk m c 2 t) (iblk m c 3 t)).trans ?_
    rw [pay1_origin]
    show Ideal.ofBits .f32 0x00000000#32 + tileTot m c t = _
    rw [Ideal.ofBits_zero_f32]
  · refine (outA_off (F := Ideal) c (grid0.coords t) (ms0_0 t) (hs0_0 t) (ms0_1 t) (hs0_1 t) (ms0_2 t) (hs0_2 t) (ms0_3 t) (hs0_3 t) (ms0_4 t) (hs0_4 t)
      ((hcond0_0 t).mpr h0) (iblk m c 0 t) (iblk m c 1 t) (iblk m c 2 t) (iblk m c 3 t) y hy).trans ?_
    exact Ideal.ofBits_zero_f32

/-- A later step: the origin gains the tile's total, every other entry is kept. -/
theorem step_later (c : Dev nD) (t : Fin cfg0.N) (h0 : ¬t.val % 8 = 0) :
    outsAt0 m c t.val t.isLt (ix2 0 0)
        = outsAt0 m c (t.val - 1) (Nat.lt_of_le_of_lt (Nat.sub_le _ _) t.isLt) (ix2 0 0) + tileTot m c t
      ∧ ∀ y, Off y → outsAt0 m c t.val t.isLt y = outsAt0 m c (t.val - 1) (Nat.lt_of_le_of_lt (Nat.sub_le _ _) t.isLt) y := by
  rw [outsAt0_B m c t h0]
  refine ⟨?_, fun y hy => ?_⟩
  · refine (outB_origin (F := Ideal) c (grid0.coords t) (ms0_0 t) (hs0_0 t) (ms0_1 t) (hs0_1 t) (ms0_2 t) (hs0_2 t) (ms0_3 t) (hs0_3 t) (ms0_4 t) (hs0_4 t)
      (fun h => h0 ((hcond0_0 t).mp h)) (iblk m c 0 t) (iblk m c 1 t) (iblk m c 2 t) (iblk m c 3 t)
      (outsAt0 m c (t.val - 1) (Nat.lt_of_le_of_lt (Nat.sub_le _ _) t.isLt))).trans ?_
    rw [pay1_origin]
    rfl
  · exact outB_off (F := Ideal) c (grid0.coords t) (ms0_0 t) (hs0_0 t) (ms0_1 t) (hs0_1 t) (ms0_2 t) (hs0_2 t) (ms0_3 t) (hs0_3 t) (ms0_4 t) (hs0_4 t)
      (fun h => h0 ((hcond0_0 t).mp h)) (iblk m c 0 t) (iblk m c 1 t) (iblk m c 2 t) (iblk m c 3 t)
      (outsAt0 m c (t.val - 1) (Nat.lt_of_le_of_lt (Nat.sub_le _ _) t.isLt)) y hy

/-- The running total after grid point `n`: restarted at a core's first step, carried on otherwise. -/
def acc (c : Dev nD) : (n : ℕ) → n < cfg0.N → EReal
  | 0, h => 0 + tileTot m c ⟨0, h⟩
  | n + 1, h => if (n + 1) % 8 = 0 then 0 + tileTot m c ⟨n + 1, h⟩
      else acc c n (Nat.lt_of_succ_lt h) + tileTot m c ⟨n + 1, h⟩

/-- After every grid point the origin of the block is the running total and every other entry is zero. -/
theorem block_after (c : Dev nD) : ∀ (n : ℕ) (h : n < cfg0.N),
    outsAt0 m c n h (ix2 0 0) = acc m c n h ∧ ∀ y, Off y → outsAt0 m c n h y = 0
  | 0, h => step_first m c ⟨0, h⟩ rfl
  | n + 1, h => by
    by_cases h0 : (n + 1) % 8 = 0
    · have s := step_first m c ⟨n + 1, h⟩ h0
      refine ⟨s.1.trans ?_, s.2⟩
      show _ = if (n + 1) % 8 = 0 then _ else _
      rw [if_pos h0]
    · have s := step_later m c ⟨n + 1, h⟩ h0
      have ih := block_after c n (Nat.lt_of_succ_lt h)
      refine ⟨s.1.trans ?_, fun y hy => (s.2 y hy).trans (ih.2 y hy)⟩
      show outsAt0 m c n _ (ix2 0 0) + _ = if (n + 1) % 8 = 0 then _ else _
      rw [if_neg h0, ih.1]

end Cert.KernelIdeal.Accum

end
-- ==== Proof.Spec.lean ====
/-
  The center loss as one formula on the extended reals.

  For a sample row `x_b` and a center row `c_q` the squared distance is `|x_b|² + |c_q|² - 2·(x_b · c_q)`.  The loss keeps,
  for every pair `(b, q)`, the distance clipped into `[lo, hi]` when `q` is the label of `b`, and the lower clip bound `lo`
  otherwise; it adds all pairs up and divides by the number of samples.  One program selects between the clipped distance
  and `lo` by the comparison bit; the other multiplies the distance by the bit made a number and clips the product.  The two
  agree because a product with zero is zero on every extended real, `0 ≤ lo` and `lo ≤ hi`.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The lower clip bound, the f32 nearest `1e-12`. -/
abbrev lo : EReal := Ideal.ofBits .f32 0x2B8CBCCC#32
/-- The upper clip bound, the f32 nearest `1e12`. -/
abbrev hi : EReal := Ideal.ofBits .f32 0x5368D4A5#32
/-- The factor two. -/
abbrev two : EReal := Ideal.ofBits .f32 0x40000000#32
/-- The number of samples as an f32. -/
abbrev cnt : EReal := Ideal.ofBits .f32 0x46800000#32

theorem lo_nonneg : (0 : EReal) ≤ lo := by
  simp [lo, Ideal.ofBits, Ideal.ieee]
  positivity

theorem lo_le_hi : lo ≤ hi := by
  simp [lo, hi, Ideal.ofBits, Ideal.ieee]
  norm_cast
  norm_num

/-- One pair's contribution from its three inner products and the comparison bit `s`: the clipped squared distance when the
    bit is set, the lower bound otherwise. -/
def cell (xx cc xc : EReal) (s : BitVec 1) : EReal :=
  Scalar.select s (min hi (max lo ((xx + cc) - two * xc))) lo

/-- Clipping after masking is selecting after clipping: the bit as a number is `0` or `1`, a product with `0` is `0`, and `0`
    clips up to `lo`. -/
theorem clip_mask (d : EReal) (s : BitVec 1) :
    min hi (max lo (d * ((s.toNat : ℝ) : EReal))) = Scalar.select s (min hi (max lo d)) lo := by
  rcases BitVec.eq_zero_or_eq_one s with h | h
  · subst h
    rw [select_zero]
    simp only [BitVec.toNat_zero, Nat.cast_zero, EReal.coe_zero, mul_zero, max_eq_left lo_nonneg, min_eq_right lo_le_hi]
  · subst h
    rw [select_one]
    simp

/-- The pair `(b, q)`'s contribution, from the samples `X`, the label words `L` and the centers `C`. -/
def term (X : (⟨2, ![16384, 512]⟩ : Shape).Idx → EReal) (L : (⟨1, ![16384]⟩ : Shape).Idx → BitVec 32)
    (C : (⟨2, ![1000, 512]⟩ : Shape).Idx → EReal) (b : Fin 16384) (q : Fin 1000) : EReal :=
  cell (∑ k : Fin 512, X (ix2 b k) * X (ix2 b k)) (∑ k : Fin 512, C (ix2 q k) * C (ix2 q k))
    (∑ k : Fin 512, X (ix2 b k) * C (ix2 q k)) (IntOp.cmpi .eq (L (ix1 b)) (BitVec.ofNat 32 q.val))

/-- The loss: every pair's contribution added up, divided by the number of samples. -/
def loss (X : (⟨2, ![16384, 512]⟩ : Shape).Idx → EReal) (L : (⟨1, ![16384]⟩ : Shape).Idx → BitVec 32)
    (C : (⟨2, ![1000, 512]⟩ : Shape).Idx → EReal) : EReal :=
  Ideal.div (∑ b : Fin 16384, ∑ q : Fin 1000, term X L C b q) cnt

end Cert.Spec

end
-- ==== Proof.Final.lean ====
/-
  The kernel's result.

  A core writes its output block back once, after its last step; by then the block is zero but for the origin, which holds
  the sum of the core's eight tiles' totals.  The two cores' blocks tile the 16×128 output array, so that array is zero but
  for the entries (0, 0) and (8, 0).  The host adds the array up and divides by the number of samples.
-/
import proofs.«133789_j37495064494859_2_alg».proof.Proof.Accum
import proofs.«133789_j37495064494859_2_alg».proof.Proof.Spec
import Idealize.ShloMosaic.Lib.Pipeline.Value
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.KernelIdeal.Accum

variable (m : (ℓ : Loc nD τ sig) → Buf (Elt Ideal) ℓ)

theorem h7 : 7 < cfg0.N := by rw [show cfg0.N = 16 from N_0]; decide
theorem h15 : 15 < cfg0.N := by rw [show cfg0.N = 16 from N_0]; decide

/-- The output array after the run: the two cores' totals at the first entries of their blocks, zero elsewhere. -/
def outArr (c : Dev nD) : S16x128.Idx → EReal := fun i =>
  if (i 1).val = 0 ∧ (i 0).val % 8 = 0 then (if (i 0).val / 8 = 0 then acc m c 7 h7 else acc m c 15 h15) else 0

/-- The output window's block index at a grid point: the core's number on the row axis, zero on the lane axis. -/
theorem out_index : ∀ t : Fin cfg0.N, win0_4.index t (0 : Fin 2) = t.val / 8 ∧ win0_4.index t (1 : Fin 2) = 0 :=
  (by decide +kernel : ∀ t : Fin grid0.N, win0_4.index t (0 : Fin 2) = t.val / 8 ∧ win0_4.index t (1 : Fin 2) = 0)

/-- What a core's last step writes back is its block of `outArr`. -/
theorem flushed_eq (c : Dev nD) (t : Fin cfg0.N) (hf : (cfg0.win 4).flush t = true) :
    (dats m 0 c).flushed 4 t = ((cfg0.win 4).blk t).view.read (Elt Ideal) (outArr m c) := by
  have hN : t.val < 16 := lt_of_lt_of_eq t.isLt (show cfg0.N = 16 from N_0)
  have hl : t.val % 8 = 7 := (flush0_4 t).mp hf
  obtain ⟨e0, e1⟩ := out_index t
  show (cfg0.win 4).cut (grid0.coords t) ((dats m 0 c).after 4 t) = _
  rw [after0_4]
  funext j
  obtain ⟨p, q, rfl⟩ : ∃ (p : Fin 8) (q : Fin 128), j = ix2 p q := ⟨j 0, j 1, eq_ix2 j⟩
  show outsAt0 m c t.val t.isLt (ix2 p q) = outArr m c (((cfg0.win 4).blk t).view.emb (ix2 p q))
  have hemb0 : ((((cfg0.win 4).blk t).view.emb (ix2 p q)) 0).val = t.val / 8 * 8 + p.val := by
    show win0_4.index t (0 : Fin 2) * 8 + 1 * p.val = _
    rw [e0]; omega
  have hemb1 : ((((cfg0.win 4).blk t).view.emb (ix2 p q)) 1).val = q.val := by
    show win0_4.index t (1 : Fin 2) * 128 + 1 * q.val = _
    rw [e1]; omega
  have hp : p.val < 8 := p.isLt
  show _ = if _ ∧ _ then (if _ then _ else _) else _
  simp only [hemb0, hemb1]
  by_cases h : p.val = 0 ∧ q.val = 0
  · obtain rfl : p = 0 := Fin.ext h.1
    obtain rfl : q = 0 := Fin.ext h.2
    rw [(block_after m c t.val t.isLt).1]
    rcases (by omega : t.val = 7 ∨ t.val = 15) with h' | h'
    · obtain rfl : t = ⟨7, h7⟩ := Fin.ext h'
      simp
    · obtain rfl : t = ⟨15, h15⟩ := Fin.ext h'
      simp
  · rw [(block_after m c t.val t.isLt).2 (ix2 p q) (by
      show p.val ≠ 0 ∨ q.val ≠ 0
      omega), if_neg]
    rintro ⟨hq, hp0⟩
    omega

/-- An index of the array is in a grid point's block iff each coordinate is in the block's range on its axis. -/
theorem mem_blk (t : Fin cfg0.N) (i : S16x128.Idx) :
    i ∈ ((cfg0.win 4).blk t).view.set ↔ ∀ a : Fin 2, win0_4.index t a * S8x128.size a ≤ (i a).val
      ∧ (i a).val < win0_4.index t a * S8x128.size a + S8x128.size a := by
  show i ∈ ((View.whole main_v4).slice (win0_4.rect t)).set ↔ _
  rw [View.set_slice_whole, Rect.mem_set_unit]
  exact Iff.rfl

/-- The two blocks written back tile the array. -/
theorem cover (i : S16x128.Idx) : ∃ t : Fin cfg0.N, (cfg0.win 4).flush t = true ∧ i ∈ ((cfg0.win 4).blk t).view.set := by
  have hi0 : (i 0).val < 16 := (i 0).isLt
  have hi1 : (i 1).val < 128 := (i 1).isLt
  by_cases h : (i 0).val < 8
  · obtain ⟨e0, e1⟩ := out_index ⟨7, h7⟩
    have e0' : win0_4.index ⟨7, h7⟩ (0 : Fin 2) = 0 := e0.trans (by decide)
    refine ⟨⟨7, h7⟩, (flush0_4 _).mpr rfl, ?_⟩
    rw [mem_blk]
    intro a
    match a with
    | ⟨0, _⟩ => show win0_4.index ⟨7, h7⟩ (0 : Fin 2) * 8 ≤ (i 0).val ∧ (i 0).val < win0_4.index ⟨7, h7⟩ (0 : Fin 2) * 8 + 8; omega
    | ⟨1, _⟩ => show win0_4.index ⟨7, h7⟩ (1 : Fin 2) * 128 ≤ (i 1).val ∧ (i 1).val < win0_4.index ⟨7, h7⟩ (1 : Fin 2) * 128 + 128; omega
  · obtain ⟨e0, e1⟩ := out_index ⟨15, h15⟩
    have e0' : win0_4.index ⟨15, h15⟩ (0 : Fin 2) = 1 := e0.trans (by decide)
    refine ⟨⟨15, h15⟩, (flush0_4 _).mpr rfl, ?_⟩
    rw [mem_blk]
    intro a
    match a with
    | ⟨0, _⟩ => show win0_4.index ⟨15, h15⟩ (0 : Fin 2) * 8 ≤ (i 0).val ∧ (i 0).val < win0_4.index ⟨15, h15⟩ (0 : Fin 2) * 8 + 8; omega
    | ⟨1, _⟩ => show win0_4.index ⟨15, h15⟩ (1 : Fin 2) * 128 ≤ (i 1).val ∧ (i 1).val < win0_4.index ⟨15, h15⟩ (1 : Fin 2) * 128 + 128; omega

/-- So the output array ends holding `outArr`. -/
theorem final_out (c : Dev nD) : (dats m 0 c).arrAt 4 cfg0.N = outArr m c :=
  (dats m 0 c).arrAt_eq_of_cover 4 (outArr m c) (fun t hf => flushed_eq m c t hf) (cover)

/-- The host's last lines: the output array added up from zero, divided by the number of samples. -/
theorem tail_eq (c : Dev nD) :
    Pipeline.afterTail₀ cfgs (dats m) 0 (V0 m) [hostOps1] c main_v6
      = fun _ => Ideal.div (∑ j : S16x128.Idx, outArr m c j) Spec.cnt := by
  unfold Pipeline.afterTail₀
  show StableHlo.after hostOps1 _ (Proc.devRef .tc main_v6) = _
  after_results
  have hw : Pipeline.withArrays (cfgs 0).spec c (V0 m c) (fun w => (dats m 0 c).arrAt w (cfgs 0).N) (Proc.devRef .tc main_v4)
      = outArr m c :=
    (Pipeline.withArrays_arr spec0 launch0.win.arr_inj c _ _ 4).trans (final_out m c)
  rw [hw]
  funext i
  show FloatOps.hostDivf (Host.reduceAdd (F := Ideal) (outArr m c) (constant (F := Ideal) S_ .f32 0x00000000#32) reducesTo_S16x128_S_d0_1 h_S_ i)
    (constant (F := Ideal) S_ .f32 0x46800000#32 i) = _
  simp only [Host.reduceAdd, Ideal.hostReduceAdd_def, Ideal.hostDivf_def]
  rw [Ideal.hostReduceAdd_total reducesTo_S16x128_S_d0_1 (fun b => b.elim0)]
  show Ideal.div (Ideal.ofBits .f32 0x00000000#32 + _) (Ideal.ofBits .f32 0x46800000#32) = _
  rw [Ideal.ofBits_zero_f32, zero_add]

end Cert.KernelIdeal.Final

end
-- ==== Proof.LibBlockedSum.lean ====
/-
  A sum accumulated block by block: a general lemma.

  A long sum `∑ n < J * b, g n` (the contraction of a matrix product, say) is often computed in `J` consecutive
  blocks of `b` terms: an accumulator is cleared, and block `j` adds its partial sum `∑ k < b, g (j * b + k)` to
  it.  In any commutative additive monoid — the extended reals with their addition among them, where no
  finiteness is needed — the accumulator ends at the whole sum.  Three statements:

    * `sum_blocks`: the whole sum is the sum over the blocks of the blocks' partial sums;
    * `accum_eq_sum`: an accumulator that starts at `0 + blk 0` and adds `blk (n + 1)` at step `n + 1` holds
      `∑ j ≤ n, blk j` after step `n`;
    * `accum_blocks`: the two together, the accumulator after the last of `J` blocks is the whole sum.
-/
import Mathlib.Algebra.BigOperators.Fin
import Mathlib.Algebra.BigOperators.Intervals
import Mathlib.Logic.Equiv.Fin.Basic

namespace Cert.LibBlockedSum

variable {A : Type} [AddCommMonoid A]

/-- Position `k` of block `j` is a position of the whole range. -/
theorem pos_lt {J b : ℕ} (j : Fin J) (k : Fin b) : j.val * b + k.val < J * b :=
  calc j.val * b + k.val < j.val * b + b := Nat.add_lt_add_left k.isLt _
    _ = (j.val + 1) * b := (Nat.succ_mul _ _).symm
    _ ≤ J * b := Nat.mul_le_mul_right _ j.isLt

/-- A sum over `J * b` positions is the sum over the `J` blocks of each block's `b` terms. -/
theorem sum_blocks (J b : ℕ) (g : Fin (J * b) → A) :
    ∑ n : Fin (J * b), g n = ∑ j : Fin J, ∑ k : Fin b, g ⟨j.val * b + k.val, pos_lt j k⟩ := by
  rw [← Equiv.sum_comp finProdFinEquiv g, Fintype.sum_prod_type]
  refine Finset.sum_congr rfl fun j _ => Finset.sum_congr rfl fun k _ => congrArg g (Fin.ext ?_)
  show k.val + b * j.val = j.val * b + k.val
  rw [Nat.mul_comm, Nat.add_comm]

/-- A running total: started at `0 + blk 0`, with `blk (n + 1)` added at step `n + 1`, it holds the sum of the
    first `n + 1` blocks after step `n`. -/
theorem accum_eq_sum (blk acc : ℕ → A) (h0 : acc 0 = 0 + blk 0) (hs : ∀ n, acc (n + 1) = acc n + blk (n + 1)) (n : ℕ) :
    acc n = ∑ j ∈ Finset.range (n + 1), blk j := by
  induction n with
  | zero => rw [h0, zero_add, Finset.sum_range_one]
  | succ n ih => rw [hs n, ih, Finset.sum_range_succ _ (n + 1)]

/-- The same when only the first `J` steps are constrained (a grid of `J` points along the accumulation axis). -/
theorem accum_eq_sum_of_lt {J : ℕ} (blk acc : ℕ → A) (h0 : acc 0 = 0 + blk 0)
    (hs : ∀ n, n + 1 < J → acc (n + 1) = acc n + blk (n + 1)) (n : ℕ) (hn : n < J) :
    acc n = ∑ j ∈ Finset.range (n + 1), blk j := by
  induction n with
  | zero => rw [h0, zero_add, Finset.sum_range_one]
  | succ n ih => rw [hs n hn, ih (Nat.lt_of_succ_lt hn), Finset.sum_range_succ _ (n + 1)]

/-- An accumulator fed the `J` blocks' partial sums of `g`, one block per step, ends at the whole sum of `g`. -/
theorem accum_blocks (J b : ℕ) (g : Fin ((J + 1) * b) → A) (acc : ℕ → A)
    (h0 : acc 0 = 0 + ∑ k : Fin b, g ⟨(0 : Fin (J + 1)).val * b + k.val, pos_lt 0 k⟩)
    (hs : ∀ n (hn : n + 1 < J + 1), acc (n + 1) = acc n + ∑ k : Fin b, g ⟨(⟨n + 1, hn⟩ : Fin (J + 1)).val * b + k.val, pos_lt ⟨n + 1, hn⟩ k⟩) :
    acc J = ∑ n : Fin ((J + 1) * b), g n := by
  let blk : ℕ → A := fun j => if hj : j < J + 1 then ∑ k : Fin b, g ⟨(⟨j, hj⟩ : Fin (J + 1)).val * b + k.val, pos_lt ⟨j, hj⟩ k⟩ else 0
  have hb : ∀ (j : ℕ) (hj : j < J + 1), blk j = ∑ k : Fin b, g ⟨(⟨j, hj⟩ : Fin (J + 1)).val * b + k.val, pos_lt ⟨j, hj⟩ k⟩ :=
    fun j hj => dif_pos hj
  have h := accum_eq_sum_of_lt (J := J + 1) blk acc (by rw [h0, hb 0 (Nat.succ_pos J)]; rfl)
    (fun n hn => by rw [hs n hn, hb (n + 1) hn]) J (Nat.lt_succ_self J)
  rw [h, sum_blocks (J + 1) b g, ← Fin.sum_univ_eq_sum_range blk (J + 1)]
  exact Finset.sum_congr rfl fun j _ => hb j.val j.isLt

end Cert.LibBlockedSum
-- ==== Proof.SumLaws.lean ====
/-
  Rearrangements of finite sums used to compare a sum taken tile by tile with the same sum taken at once.  They hold in
  any commutative additive monoid, so on the extended reals they need no finiteness.

    * an array that is zero but for the first entries of its two row blocks sums to those two entries;
    * a running total that restarts every eighth step ends, after steps 7 and 15, at totals whose sum is the sum of all
      sixteen terms;
    * sixteen tiles of 1024 rows each are all 16384 rows.
-/
import Idealize.ShloMosaic.Lib.ValueIdx
import proofs.«133789_j37495064494859_2_alg».proof.Proof.LibBlockedSum

noncomputable section

namespace Cert.SumLaws

open Idealize.ShloMosaic Idealize.ShloMosaic.ValueIdx

variable {M : Type} [AddCommMonoid M]

/-- A 16×128 array whose entries vanish except at `(0, 0)` and `(8, 0)` sums to those two entries. -/
theorem sum_two_origins (A0 A1 : M) (G : (⟨2, ![16, 128]⟩ : Shape).Idx → M)
    (hG : ∀ (a : Fin 16) (b : Fin 128),
      G (ix2 a b) = if b.val = 0 ∧ a.val % 8 = 0 then (if a.val / 8 = 0 then A0 else A1) else 0) :
    ∑ j, G j = A0 + A1 := by
  rw [sum_idx2]
  have inner : ∀ a : Fin 16, ∑ b : Fin 128, G (ix2 a b) = if a.val % 8 = 0 then (if a.val / 8 = 0 then A0 else A1) else 0 := by
    intro a
    rw [Finset.sum_eq_single (0 : Fin 128)]
    · rw [hG]; simp
    · intro b _ hb
      rw [hG, if_neg]
      rintro ⟨h, -⟩
      exact hb (Fin.ext h)
    · intro h; exact absurd (Finset.mem_univ _) h
  simp only [inner]
  rw [Fin.sum_univ_eq_sum_range (fun n => if n % 8 = 0 then (if n / 8 = 0 then A0 else A1) else 0) 16]
  simp [Finset.sum_range_succ]

/-- A running total of the terms `T 0, T 1, …` that restarts at every eighth step. -/
def run8 (T : ℕ → M) : ℕ → M
  | 0 => 0 + T 0
  | n + 1 => if (n + 1) % 8 = 0 then 0 + T (n + 1) else run8 T n + T (n + 1)

/-- What it holds after steps 7 and 15 adds up to the sum of the first sixteen terms. -/
theorem run8_ends (T : ℕ → M) : run8 T 7 + run8 T 15 = ∑ n ∈ Finset.range 16, T n := by
  simp [run8, Finset.sum_range_succ]
  abel

/-- Row `r` of tile `t` is a row of the whole array. -/
theorem row_lt (t : Fin 16) (r : Fin 1024) : t.val * 1024 + r.val < 16384 := by
  have := t.isLt; have := r.isLt; omega

/-- Sixteen tiles of 1024 rows are all 16384 rows. -/
theorem sum_tiles (f : Fin 16384 → M) :
    ∑ t : Fin 16, ∑ r : Fin 1024, f ⟨t.val * 1024 + r.val, row_lt t r⟩ = ∑ b : Fin 16384, f b :=
  (Cert.LibBlockedSum.sum_blocks 16 1024 (fun b : Fin (16 * 1024) => f b)).symm

end Cert.SumLaws

end
-- ==== Proof.LibMatmulNN.lean ====
/-
  A plain matrix product read at an index at the exact extended reals: a general lemma.

  With dimension numbers that contract axis 1 of an `[M, K]` left factor with axis 0 of a `[K, N]` right factor (no
  batch axes; the result `[M, N]`), and a zero accumulator, entry `(p, q)` of the product is the sum over `e` of
  `lhs (p, e) * rhs (e, q)`: row `p` of the left factor against column `q` of the right one.
-/
import Idealize.ShloMosaic.PureOps.Ideal
import Idealize.ShloMosaic.PureOps.Ideal.Laws
import Idealize.ShloMosaic.Lib.ValueIdx

noncomputable section

namespace Cert.LibMatmulNN

open Idealize.ShloMosaic Idealize.ShloMosaic.ValueIdx

variable {M N K : ℕ}

/-- The dimension numbers "rows against columns": contract axis 1 with axis 0, keep axis 0 of the left factor and
    axis 1 of the right one, no batch. -/
abbrev dims (wf : DotDims.WF (⟨2, ![M, K]⟩ : Shape) (⟨2, ![K, N]⟩ : Shape) (⟨2, ![M, N]⟩ : Shape) [1] [0] [0] [1] [] []) :
    DotDims (⟨2, ![M, K]⟩ : Shape) (⟨2, ![K, N]⟩ : Shape) (⟨2, ![M, N]⟩ : Shape) where
  lhsContracting := [1]
  rhsContracting := [0]
  lhsNonContracting := [0]
  rhsNonContracting := [1]
  lhsBatch := []
  rhsBatch := []
  wf := wf

variable (wf : DotDims.WF (⟨2, ![M, K]⟩ : Shape) (⟨2, ![K, N]⟩ : Shape) (⟨2, ![M, N]⟩ : Shape) [1] [0] [0] [1] [] [])

/-- The left index keeps the result's row coordinate on its row axis. -/
theorem lhsIdx_row (j : (⟨2, ![M, N]⟩ : Shape).Idx) (k : (dims wf).contr.Idx) :
    ((dims wf).lhsIdx j k 0).val = (j 0).val := by
  unfold DotDims.lhsIdx
  rw [dif_neg (show ¬(0 : Fin (⟨2, ![M, K]⟩ : Shape).rank) ∈ (dims wf).lhsBatch from List.not_mem_nil),
    dif_pos (show (0 : Fin (⟨2, ![M, K]⟩ : Shape).rank) ∈ (dims wf).lhsNonContracting from List.mem_singleton.mpr rfl)]
  rfl

/-- The right index keeps the result's column coordinate on its column axis. -/
theorem rhsIdx_col (j : (⟨2, ![M, N]⟩ : Shape).Idx) (k : (dims wf).contr.Idx) :
    ((dims wf).rhsIdx j k 1).val = (j 1).val := by
  unfold DotDims.rhsIdx
  rw [dif_neg (show ¬(1 : Fin (⟨2, ![K, N]⟩ : Shape).rank) ∈ (dims wf).rhsBatch from List.not_mem_nil),
    dif_pos (show (1 : Fin (⟨2, ![K, N]⟩ : Shape).rank) ∈ (dims wf).rhsNonContracting from List.mem_singleton.mpr rfl)]
  rfl

/-- The left index at result `(p, q)` and contraction position `e` is `(p, e)`. -/
theorem lhsIdx_eq (p : Fin M) (q : Fin N) (e : Fin K) :
    (dims wf).lhsIdx (ix2 p q) ((contrEquiv1 (dims wf) K rfl rfl).symm e) = ix2 p e := by
  have he := contrEquiv1_symm_val (dims wf) K rfl rfl e
  funext a
  apply Fin.ext
  match a with
  | ⟨0, _⟩ => exact lhsIdx_row wf _ _
  | ⟨1, _⟩ => exact ((dims wf).lhsIdx_val_of_single rfl _ _).trans he

/-- The right index at result `(p, q)` and contraction position `e` is `(e, q)`. -/
theorem rhsIdx_eq (p : Fin M) (q : Fin N) (e : Fin K) :
    (dims wf).rhsIdx (ix2 p q) ((contrEquiv1 (dims wf) K rfl rfl).symm e) = ix2 e q := by
  have he := contrEquiv1_symm_val (dims wf) K rfl rfl e
  funext a
  apply Fin.ext
  match a with
  | ⟨0, _⟩ => exact ((dims wf).rhsIdx_val_of_single rfl _ _).trans he
  | ⟨1, _⟩ => exact rhsIdx_col wf _ _

/-- Entry `(p, q)` of the product into a zero accumulator: row `p` of `lhs` against column `q` of `rhs`. -/
theorem matmul_zero_apply {φ₁ φ₂ : FTy} (prec : Option ContractPrecision)
    (lhs : FVec Ideal (⟨2, ![M, K]⟩ : Shape) φ₁) (rhs : FVec Ideal (⟨2, ![K, N]⟩ : Shape) φ₂) (p : Fin M) (q : Fin N) :
    FloatOps.matmul (dims wf) prec lhs rhs (constant (F := Ideal) (⟨2, ![M, N]⟩ : Shape) .f32 0x00000000#32) (ix2 p q)
      = ∑ e : Fin K, lhs (ix2 p e) * rhs (ix2 e q) := by
  rw [Ideal.matmul_constant_zero_apply, ← Equiv.sum_comp (contrEquiv1 (dims wf) K rfl rfl).symm]
  refine Finset.sum_congr rfl fun e _ => ?_
  rw [lhsIdx_eq wf p q e, rhsIdx_eq wf p q e]

end Cert.LibMatmulNN

end
-- ==== Proof.LibColumnSum.lean ====
/-
  The column sums of a matrix, read at an index at the exact extended reals: a general lemma.

  A sum-reduction of an `[a, b]` array over its row axis (axis 0) leaves a vector `[b]`; its entry `q` is the sum over
  the rows `k` of the array at `(k, q)`.
-/
import Idealize.ShloMosaic.PureOps.Ideal
import Idealize.ShloMosaic.PureOps.Ideal.Laws
import Idealize.ShloMosaic.Lib.ValueIdx

noncomputable section

namespace Cert.LibColumnSum

open Idealize.ShloMosaic Idealize.ShloMosaic.ValueIdx

variable {a b : ℕ}

/-- The index of the matrix over entry `q` of the reduced vector, with row coordinate `k` put back, is `(k, q)`. -/
theorem lift_eq (h : (⟨2, ![a, b]⟩ : Shape).Reduces [0] (⟨1, ![b]⟩ : Shape)) (q : Fin b) (k : Fin a) :
    h.lift (ix1 q) k = ix2 k q := by
  funext c
  apply Fin.ext
  refine (h.lift_val (ix1 q) k c).trans ?_
  unfold Shape.Reduces.liftVal
  match c with
  | ⟨0, _⟩ => rfl
  | ⟨1, _⟩ => rfl

/-- Entry `q` of the column sums is the sum over the rows of column `q`. -/
theorem colSum_apply {φ : FTy} (src : FVec Ideal (⟨2, ![a, b]⟩ : Shape) φ) (acc : BitVec φ.bits)
    (h : (⟨2, ![a, b]⟩ : Shape).Reduces [0] (⟨1, ![b]⟩ : Shape)) (hφ : FKind.Formats φ) (hacc : acc = FKind.add.neutral φ hφ)
    (q : Fin b) :
    multiReduction .add [0] (⟨1, ![b]⟩ : Shape) src acc h hφ hacc (ix1 q) = ∑ k : Fin a, src (ix2 k q) := by
  refine (Ideal.multiReduction_add_single src acc h hφ hacc (ix1 q)).trans ?_
  exact Finset.sum_congr rfl fun k _ => congrArg src (lift_eq h q k)

end Cert.LibColumnSum

end
-- ==== Proof.LibVectorColumn.lean ====
/-
  A vector made into a column, two ways: a general layout lemma.

  An `[a]` array becomes an `[a, 1]` column either by a shape cast (row-major order kept) or by a broadcast that sends
  its one axis to axis 0. Either way the entry at `(p, 0)` is the vector's entry at `p`, so the two columns are the
  same array.
-/
import Idealize.ShloMosaic.Lib.Pipeline.Value
import Idealize.ShloMosaic.Lib.ValueIdx

namespace Cert.LibVectorColumn

open Idealize.ShloMosaic Idealize.ShloMosaic.ValueIdx

/-- An `[a]` array shape-cast to `[a, 1]` reads, at `(p, u)`, the operand at `p`. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- An `[a]` array broadcast to `[a, 1]` along axis 0 reads, at `(p, u)`, the operand at `p`. -/
theorem broadcastInDim_a_a1_apply {α : Type} {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply ![0] h x (ix2 p u) (ix1 p) fun ax => ?_
  match ax with
  | ⟨0, _⟩ =>
    show p.val = if a = 1 then 0 else p.val
    split
    · have := p.isLt; omega
    · rfl

/-- The shape-cast column and the broadcast column of one vector are the same array. -/
theorem shapeCast_eq_broadcastInDim {α : Type} {a : ℕ} (x : (⟨1, ![a]⟩ : Shape).Idx → α)
    (h : (⟨1, ![a]⟩ : Shape).ShapeCasts ⟨2, ![a, 1]⟩) (h' : (⟨1, ![a]⟩ : Shape).BroadcastsInDim ⟨2, ![a, 1]⟩ ![0]) :
    shapeCast ⟨2, ![a, 1]⟩ x h = broadcastInDim ⟨2, ![a, 1]⟩ ![0] h' x := by
  funext i
  obtain ⟨p, u, rfl⟩ : ∃ (p : Fin a) (u : Fin 1), i = ix2 p u := ⟨i 0, i 1, eq_ix2 i⟩
  rw [shapeCast_a_a1_apply, broadcastInDim_a_a1_apply]

end Cert.LibVectorColumn
-- ==== Proof.LibColumnBroadcast.lean ====
/-
  One column broadcast over many: a general layout lemma, in the style of the library's row form. A `[a, 1]` array
  broadcast to `[a, b]` repeats its one column: the entry at `(p, c)` is the operand's entry at `(p, 0)`, whatever
  the column `c`. (What a row statistic kept with its unit axis — a row sum, a row maximum — needs when it meets a
  full tile.)
-/
import Idealize.ShloMosaic.Lib.Pipeline.Value
import Idealize.ShloMosaic.Lib.ValueIdx

namespace Cert.Layout

open Idealize.ShloMosaic Idealize.ShloMosaic.ValueIdx

/-- A `[a, 1]` array broadcast to `[a, b]` reads, at `(p, c)`, the operand's one column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Layout
-- ==== Proof.LibBiasRow.lean ====
/-
  A bias vector laid along the rows, and a scalar spread over an array, read at an index: general lemmas.

  A vector `[b]` shape-cast to the row `[1, b]` keeps its entries in order, so the row at `(0, q)` is the vector at
  `q`; that row broadcast to `[a, b]` (a vector broadcast: trailing axes aligned, the unit axis repeated) reads, at
  `(p, q)`, the vector at `q` again. A rank-0 array broadcast to any shape reads its one entry everywhere.
-/
import Idealize.ShloMosaic.Lib.Pipeline.Value
import Idealize.ShloMosaic.Lib.ValueIdx

namespace BiasRead

open Idealize.ShloMosaic Idealize.ShloMosaic.ValueIdx

/-- A vector `[b]` shape-cast to the row `[1, b]` reads, at `(u, q)`, the vector at `q`. -/
theorem vector_as_row_apply {α : Type} {b : ℕ} (x : (⟨1, ![b]⟩ : Shape).Idx → α)
    (h : (⟨1, ![b]⟩ : Shape).ShapeCasts ⟨2, ![1, b]⟩) (u : Fin 1) (q : Fin b) :
    shapeCast ⟨2, ![1, b]⟩ x h (ix2 u q) = x (ix1 q) := by
  refine shapeCast_apply x h (ix2 u q) (ix1 q) ?_
  rw [Shape.rowMajor_val_one, Shape.rowMajor_val_two]
  show q.val = u.val * b + q.val
  have hu : u.val = 0 := by have := u.isLt; omega
  rw [hu, Nat.zero_mul, Nat.zero_add]

/-- A row `[1, b]` broadcast down to `[a, b]` (trailing axes aligned) reads, at `(p, q)`, the row at `(0, q)`. -/
theorem row_down_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- A bias vector `[b]` made a row and broadcast down to `[a, b]` reads, at `(p, q)`, the vector at `q`. -/
theorem bias_rows_apply {α : Type} {a b : ℕ} (x : (⟨1, ![b]⟩ : Shape).Idx → α)
    (h₁ : (⟨1, ![b]⟩ : Shape).ShapeCasts ⟨2, ![1, b]⟩) (h₂ : (⟨2, ![1, b]⟩ : Shape).Broadcasts ⟨2, ![a, b]⟩)
    (p : Fin a) (q : Fin b) :
    broadcastTo ⟨2, ![a, b]⟩ (shapeCast ⟨2, ![1, b]⟩ x h₁) h₂ (ix2 p q) = x (ix1 q) :=
  (row_down_apply _ h₂ p q).trans (vector_as_row_apply x h₁ 0 q)

/-- A rank-0 array broadcast to any shape reads its one entry at every index. -/
theorem scalar_apply {α : Type} {t : Shape} (x : (⟨0, ![]⟩ : Shape).Idx → α)
    (h : (⟨0, ![]⟩ : Shape).BroadcastsInDim t ![]) (j : t.Idx) (k : (⟨0, ![]⟩ : Shape).Idx) :
    broadcastInDim t ![] h x j = x k :=
  broadcastInDim_apply ![] h x j k fun ax => ax.elim0

end BiasRead
-- ==== Proof.TileTotal.lean ====
/-
  One tile's total: the arithmetic of the kernel body read at its one entry.

  For a tile of 1024 sample rows `x_r`, the 1000 center rows `c_q` with their squared norms given as a row, and the
  tile's label column, the body forms the squared distances `|x_r|² + |c_q|² - 2·(x_r · c_q)`, keeps for every pair
  `(r, q)` the distance clipped into `[lo, hi]` when `q` is the label of `r` and `lo` otherwise, adds each row up and
  then adds the row totals up.  Read at its one entry, the result is the double sum over the pairs of the tile of the
  pair's contribution `cell`.

  Each operation that is not entry-by-entry (a row sum kept as a column, a column or a row repeated over the tile, the
  matrix product against the transposed centers, the row of class numbers) is read at explicit coordinates `(r, q)` in a
  small lemma of its own; the entry-by-entry ones (product, sum, difference, clip, comparison, selection) read at an
  index by definition.
-/
import proofs.«133789_j37495064494859_2_alg».proof.Proof.Gen.KernelIdeal.Skeleton
import proofs.«133789_j37495064494859_2_alg».proof.Proof.Spec
import proofs.«133789_j37495064494859_2_alg».proof.Proof.LibMatmulNN
import proofs.«133789_j37495064494859_2_alg».proof.Proof.LibColumnSum
import proofs.«133789_j37495064494859_2_alg».proof.Proof.LibVectorColumn
import proofs.«133789_j37495064494859_2_alg».proof.Proof.LibColumnBroadcast
import proofs.«133789_j37495064494859_2_alg».proof.Proof.LibBiasRow
import Idealize.ShloMosaic.Lib.Pipeline.Value
import Idealize.ShloMosaic.Lib.ValueIdx
import Idealize.ShloMosaic.PureOps.Ideal
import Idealize.ShloMosaic.PureOps.Ideal.Laws

noncomputable section

namespace Cert.KernelIdeal.TileTotal

open Cert.KernelIdeal Cert.KernelIdeal.Gen Idealize.ShloMosaic Idealize.ShloMosaic.ValueIdx

/-! ## Row sums at an index -/

/-- The index of an `[a, b]` matrix over entry `p` of its row sums, with the column coordinate `k` put back, is `(p, k)`. -/
theorem lift_row {a b : ℕ} (h : (⟨2, ![a, b]⟩ : Shape).Reduces [1] (⟨1, ![a]⟩ : Shape)) (p : Fin a) (k : Fin b) :
    h.lift (ix1 p) k = ix2 p k := by
  funext c
  apply Fin.ext
  refine (h.lift_val (ix1 p) k c).trans ?_
  unfold Shape.Reduces.liftVal
  match c with
  | ⟨0, _⟩ => rfl
  | ⟨1, _⟩ => rfl

/-- Entry `p` of the row sums of an `[a, b]` matrix is the sum over the columns of row `p`. -/
theorem rowSum_apply {φ : FTy} {a b : ℕ} (src : FVec Ideal (⟨2, ![a, b]⟩ : Shape) φ) (acc : BitVec φ.bits)
    (h : (⟨2, ![a, b]⟩ : Shape).Reduces [1] (⟨1, ![a]⟩ : Shape)) (hφ : FKind.Formats φ) (hacc : acc = FKind.add.neutral φ hφ)
    (p : Fin a) :
    multiReduction (F := Ideal) .add [1] (⟨1, ![a]⟩ : Shape) src acc h hφ hacc (ix1 p) = ∑ k : Fin b, src (ix2 p k) := by
  refine (Ideal.multiReduction_add_single src acc h hφ hacc (ix1 p)).trans ?_
  exact Finset.sum_congr rfl fun k _ => congrArg src (lift_row h p k)

/-! ## The pieces of the squared distance at `(r, q)` -/

/-- The samples' squared norms, summed along each row, kept as a column and repeated over the tile: at `(r, q)` the
    squared norm of row `r`. -/
theorem sqnorm_apply (x0 : FVec Ideal S1024x512 .f32) (r : Fin 1024) (q : Fin 1000) :
    broadcastTo S1024x1000
        (shapeCast S1024x1
          (multiReduction (F := Ideal) .add [1] S1024 (mulf x0 x0) 0x00000000#32 reduces_S1024x512_S1024 (.inl rfl) rfl)
          shapeCasts_S1024_S1024x1)
        broadcasts_S1024x1_S1024x1000 (ix2 r q)
      = ∑ k : Fin 512, x0 (ix2 r k) * x0 (ix2 r k) := by
  refine (Cert.Layout.broadcastTo_a1_ab_apply _ _ r q).trans ?_
  refine (Cert.LibVectorColumn.shapeCast_a_a1_apply _ _ r 0).trans ?_
  exact rowSum_apply (mulf x0 x0) _ _ _ _ r

/-- The row of the centers' squared norms repeated down the tile: at `(r, q)` the norm of center `q`. -/
theorem cnorm_apply (x2 : FVec Ideal S1x1000 .f32) (r : Fin 1024) (q : Fin 1000) :
    broadcastTo S1024x1000 (shapeCast S1x1000 x2 shapeCasts_S1x1000_S1x1000) broadcasts_S1x1000_S1024x1000 (ix2 r q)
      = x2 (ix2 (0 : Fin 1) q) := by
  refine (BiasRead.row_down_apply _ _ r q).trans ?_
  rw [shapeCast_self]

/-- The product of the samples with the transposed centers, into a zero accumulator: at `(r, q)` the inner product of
    sample row `r` with center row `q` (a change of float format is the identity on the extended reals). -/
theorem cross_apply (x0 : FVec Ideal S1024x512 .f32) (x1 : FVec Ideal S1000x512 .f32) (r : Fin 1024) (q : Fin 1000) :
    matmul (F := Ideal) dot_S1024x512_S512x1000_S1024x1000_1_0_0_1_n_n none (truncf .bf16 x0 bitsLt_bf16_f32)
        (transpose S512x1000 [1, 0] (truncf .bf16 x1 bitsLt_bf16_f32) transposes_S1000x512_p1_0_S512x1000)
        (constant (F := Ideal) S1024x1000 .f32 0x00000000#32) (ix2 r q)
      = ∑ k : Fin 512, x0 (ix2 r k) * x1 (ix2 q k) := by
  refine (Cert.LibMatmulNN.matmul_zero_apply dot_S1024x512_S512x1000_S1024x1000_1_0_0_1_n_n_wf none
    (truncf .bf16 x0 bitsLt_bf16_f32)
    (transpose S512x1000 [1, 0] (truncf .bf16 x1 bitsLt_bf16_f32) transposes_S1000x512_p1_0_S512x1000) r q).trans ?_
  refine Finset.sum_congr rfl fun e _ => ?_
  refine congrArg (fun t : EReal => x0 (ix2 r e) * t) ?_
  exact transpose_apply [1, 0] (truncf .bf16 x1 bitsLt_bf16_f32) transposes_S1000x512_p1_0_S512x1000 (ix2 e q) (ix2 q e)
    (fun b => match b with | ⟨0, _⟩ => rfl | ⟨1, _⟩ => rfl)

/-! ## The comparison's two sides at `(r, q)` -/

/-- The label column repeated over the tile: at `(r, q)` the label of row `r`. -/
theorem label_apply (x3 : IVec S1024x1 32) (r : Fin 1024) (q : Fin 1000) :
    broadcastTo S1024x1000 (shapeCast S1024x1 x3 shapeCasts_S1024x1_S1024x1) broadcasts_S1024x1_S1024x1000 (ix2 r q)
      = x3 (ix2 r (0 : Fin 1)) := by
  refine (Cert.Layout.broadcastTo_a1_ab_apply _ _ r q).trans ?_
  rw [shapeCast_self]

/-- The row of class numbers repeated down the tile: at `(r, q)` the word of `q`. -/
theorem class_apply (r : Fin 1024) (q : Fin 1000) :
    broadcastTo S1024x1000 (iota .tc S1x1000 32 [1] iota_S1x1000_d1_w32) broadcasts_S1x1000_S1024x1000 (ix2 r q)
      = BitVec.ofNat 32 q.val := by
  refine (BiasRead.row_down_apply _ _ r q).trans ?_
  exact iota_single_apply .tc S1x1000 32 1 iota_S1x1000_d1_w32 (ix2 (0 : Fin 1) q)

/-! ## One pair's contribution, and the tile's total -/

/-- The selected array at `(r, q)` is the pair's contribution: the comparison bit chooses between the clipped squared
    distance and the lower clip bound. -/
theorem picked_apply (x0 : FVec Ideal S1024x512 .f32) (x1 : FVec Ideal S1000x512 .f32) (x2 : FVec Ideal S1x1000 .f32)
    (x3 : IVec S1024x1 32) (r : Fin 1024) (q : Fin 1000) :
    select
        (cmpi .eq
          (broadcastTo S1024x1000 (shapeCast S1024x1 x3 shapeCasts_S1024x1_S1024x1) broadcasts_S1024x1_S1024x1000)
          (broadcastTo S1024x1000 (iota .tc S1x1000 32 [1] iota_S1x1000_d1_w32) broadcasts_S1x1000_S1024x1000))
        (minimumf (broadcast S1024x1000 (Scalar.ofBits (F := Ideal) .f32 0x5368D4A5#32))
          (maximumf (broadcast S1024x1000 (Scalar.ofBits (F := Ideal) .f32 0x2B8CBCCC#32))
            (subf
              (addf
                (broadcastTo S1024x1000
                  (shapeCast S1024x1
                    (multiReduction (F := Ideal) .add [1] S1024 (mulf x0 x0) 0x00000000#32 reduces_S1024x512_S1024 (.inl rfl) rfl)
                    shapeCasts_S1024_S1024x1)
                  broadcasts_S1024x1_S1024x1000)
                (broadcastTo S1024x1000 (shapeCast S1x1000 x2 shapeCasts_S1x1000_S1x1000) broadcasts_S1x1000_S1024x1000))
              (mulf (broadcast S1024x1000 (Scalar.ofBits (F := Ideal) .f32 0x40000000#32))
                (matmul (F := Ideal) dot_S1024x512_S512x1000_S1024x1000_1_0_0_1_n_n none (truncf .bf16 x0 bitsLt_bf16_f32)
                  (transpose S512x1000 [1, 0] (truncf .bf16 x1 bitsLt_bf16_f32) transposes_S1000x512_p1_0_S512x1000)
                  (constant (F := Ideal) S1024x1000 .f32 0x00000000#32))))))
        (broadcast S1024x1000 (Scalar.ofBits (F := Ideal) .f32 0x2B8CBCCC#32)) (ix2 r q)
      = Cert.Spec.cell (∑ k : Fin 512, x0 (ix2 r k) * x0 (ix2 r k)) (x2 (ix2 (0 : Fin 1) q))
          (∑ k : Fin 512, x0 (ix2 r k) * x1 (ix2 q k))
          (IntOp.cmpi .eq (x3 (ix2 r (0 : Fin 1))) (BitVec.ofNat 32 q.val)) := by
  show Scalar.select (IntOp.cmpi .eq _ _) (min Cert.Spec.hi (max Cert.Spec.lo ((_ + _) - Cert.Spec.two * _))) Cert.Spec.lo = _
  rw [label_apply x3 r q, class_apply r q, sqnorm_apply x0 r q, cnorm_apply x2 r q, cross_apply x0 x1 r q]
  rfl

/-- The tile's total: the body's result at its one entry is the sum over the tile's pairs `(r, q)` of the pair's
    contribution. -/
theorem tile_total (x0 : Vec Ideal S1024x512 .f32) (x1 : Vec Ideal S1000x512 .f32) (x2 : Vec Ideal S1x1000 .f32)
    (x3 : Vec Ideal S1024x1 .i32) :
    k0_pay3 (F := Ideal) x0 x1 x2 x3 (ix2 (0 : Fin 1) (0 : Fin 1)) =
      ∑ r : Fin 1024, ∑ q : Fin 1000,
        Cert.Spec.cell (∑ k : Fin 512, x0 (ix2 r k) * x0 (ix2 r k)) (x2 (ix2 (0 : Fin 1) q))
          (∑ k : Fin 512, x0 (ix2 r k) * x1 (ix2 q k))
          (IntOp.cmpi .eq (x3 (ix2 r (0 : Fin 1))) (BitVec.ofNat 32 q.val)) := by
  unfold k0_pay3
  -- the one entry of the `[1, 1]` result is the one entry of the vector of column totals
  refine (Cert.LibVectorColumn.shapeCast_a_a1_apply _ _ (0 : Fin 1) (0 : Fin 1)).trans ?_
  -- which is the sum down the column of row totals
  refine (Cert.LibColumnSum.colSum_apply _ _ _ _ _ (0 : Fin 1)).trans ?_
  refine Finset.sum_congr rfl fun r _ => ?_
  -- a row total kept as a column entry is the row sum of the selected array
  refine (Cert.LibVectorColumn.shapeCast_a_a1_apply _ _ r (0 : Fin 1)).trans ?_
  refine (rowSum_apply _ _ _ _ _ r).trans ?_
  refine Finset.sum_congr rfl fun q _ => ?_
  exact picked_apply x0 x1 x2 x3 r q

end Cert.KernelIdeal.TileTotal

end
-- ==== Proof.LibBroadcastInDim.lean ====
/-
  Three `broadcast_in_dim` layouts read at an index: general lemmas.

  A column `[a, 1]` sent to `[a, b]` along both axes repeats its one column; a row `[1, b]` sent to `[a, b]` along both
  axes repeats its one row; a vector `[b]` sent to `[1, b]` along axis 1 is the row with the vector's entries.
-/
import Idealize.ShloMosaic.Lib.Pipeline.Value
import Idealize.ShloMosaic.Lib.ValueIdx

namespace BroadcastRead

open Idealize.ShloMosaic Idealize.ShloMosaic.ValueIdx

/-- A column `[a, 1]` broadcast to `[a, b]` reads, at `(p, q)`, the column at row `p`. -/
theorem column_apply {α : Type} {a b : ℕ} (v : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h v (ix2 p q) = v (ix2 p (0 : Fin 1)) := by
  refine broadcastInDim_apply ![0, 1] h v (ix2 p q) (ix2 p (0 : Fin 1)) fun ax => ?_
  match ax with
  | ⟨0, _⟩ =>
    show p.val = if a = 1 then 0 else p.val
    split
    · have := p.isLt; omega
    · rfl
  | ⟨1, _⟩ => rfl

/-- A row `[1, b]` broadcast to `[a, b]` reads, at `(p, q)`, the row at column `q`. -/
theorem row_apply {α : Type} {a b : ℕ} (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply ![0, 1] h v (ix2 p q) (ix2 (0 : Fin 1) q) fun ax => ?_
  match ax with
  | ⟨0, _⟩ => rfl
  | ⟨1, _⟩ =>
    show q.val = if b = 1 then 0 else q.val
    split
    · have := q.isLt; omega
    · rfl

/-- A vector `[b]` broadcast to the row `[1, b]` along axis 1 reads, at `(u, q)`, the vector at `q`. -/
theorem vector_row_apply {α : Type} {b : ℕ} (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) := by
  refine broadcastInDim_apply ![1] h x (ix2 u q) (ix1 q) fun ax => ?_
  match ax with
  | ⟨0, _⟩ =>
    show q.val = if b = 1 then 0 else q.val
    split
    · have := q.isLt; omega
    · rfl

end BroadcastRead
-- ==== Proof.Blocks.lean ====
/-
  What the kernel's four input windows hold at a grid point, read off the arrays the program was launched with.

  The grid has sixteen points; at point `t` the sample window holds rows `1024·t … 1024·t + 1023` of the sample array, the
  label window the same rows of the label column, and the two center windows hold their arrays whole at every point.  The
  label column is the label vector laid out as a one-column array, so its row `b` is the vector's entry `b`.  The
  row `[1, 1000]` of squared center lengths was computed before the grid starts: entry `q` is zero plus the sum over
  the 512 coordinates of the square of center `q`'s coordinate, and on the extended reals the zero drops out.
-/
import proofs.«133789_j37495064494859_2_alg».proof.Proof.Gen.KernelIdeal.Frame
import proofs.«133789_j37495064494859_2_alg».proof.Proof.LibVectorColumn
import proofs.«133789_j37495064494859_2_alg».proof.Proof.LibBroadcastInDim
import Idealize.ShloMosaic.Lib.Pipeline.Value
import Idealize.ShloMosaic.Lib.ValueIdx
import Idealize.ShloMosaic.Lib.StableHlo.Run
import Idealize.ShloMosaic.PureOps.Ideal.Laws

set_option maxRecDepth 16384

noncomputable section

open Idealize.ShloMosaic Idealize.ShloMosaic.TcCoe Idealize.SL.Sem Idealize.ShloMosaic.ValueIdx

namespace Cert.KernelIdeal.Blocks

open Cert.KernelIdeal Cert.KernelIdeal.Gen

variable (m : (ℓ : Loc nD τ sig) → Buf (Elt Ideal) ℓ)

/-! ## Where each window's block sits, at every grid point -/

/-- The sample window's block at point `t` is block row `t`, block column `0`. -/
theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
/-- The center window's block is the one block `(0, 0)` at every point. -/
theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
/-- So is the block of the row of squared center lengths. -/
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
/-- The label window's block at point `t` is block row `t` of the one-column label array. -/
theorem idx3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)

/-- Row `r` of the block at point `t` is a row of the 16384-row arrays: sixteen blocks of 1024 rows. -/
theorem row_lt (t : Fin cfg0.N) (r : Fin 1024) : t.val * 1024 + r.val < 16384 := by
  have hN : cfg0.N = 16 := N_0
  have := t.isLt
  have := r.isLt
  omega

/-! ## The two windows on argument arrays -/

/-- The sample window at point `t`, entry `(r, k)`: the sample array at row `1024·t + r`, column `k`. -/
theorem blk_x (c : Dev nD) (t : Fin cfg0.N) (r : Fin 1024) (k : Fin 512) :
    (iblk m c 0 t : Vec Ideal S1024x512 .f32) (ix2 r k) = m ((c.tc : Thread nD τ).loc main_arg0) (ix2 ⟨t.val * 1024 + r.val, row_lt t r⟩ k) := by
  unfold iblk
  rw [View.read_apply]
  show V m c main_arg0 (((cfg0.win 0).blk t).view.emb (ix2 r k)) = _
  rw [V_main_arg0]
  refine congrArg (m ((c.tc : Thread nD τ).loc main_arg0)) (funext fun a => Fin.ext ?_)
  match a with
  | ⟨0, _⟩ => show win0_0.index t 0 * 1024 + 1 * r.val = t.val * 1024 + r.val; rw [(idx0 t).1]; omega
  | ⟨1, _⟩ => show win0_0.index t 1 * 512 + 1 * k.val = k.val; rw [(idx0 t).2]; omega

/-- The center window at any point, entry `(q, k)`: the center array at `(q, k)`. -/
theorem blk_c (c : Dev nD) (t : Fin cfg0.N) (q : Fin 1000) (k : Fin 512) :
    (iblk m c 1 t : Vec Ideal S1000x512 .f32) (ix2 q k) = m ((c.tc : Thread nD τ).loc main_arg2) (ix2 q k) := by
  unfold iblk
  rw [View.read_apply]
  show V m c main_arg2 (((cfg0.win 1).blk t).view.emb (ix2 q k)) = _
  rw [V_main_arg2]
  refine congrArg (m ((c.tc : Thread nD τ).loc main_arg2)) (funext fun a => Fin.ext ?_)
  match a with
  | ⟨0, _⟩ => show win0_1.index t 0 * 1000 + 1 * q.val = q.val; rw [(idx1 t).1]; omega
  | ⟨1, _⟩ => show win0_1.index t 1 * 512 + 1 * k.val = k.val; rw [(idx1 t).2]; omega

/-! ## The two arrays computed before the grid starts -/

/-- The label column the grid reads is the label vector laid out as a `[16384, 1]` array. -/
theorem V_v0 (c : Dev nD) :
    (V m c main_v0 : S16384x1.Idx → BitVec 32)
      = shapeCast S16384x1 (m ((c.tc : Thread nD τ).loc main_arg1)) shapeCasts_S16384_S16384x1 := by
  show StableHlo.after hostOps0 (fun b => m (c, b)) (Proc.devRef .tc main_v0) = _
  after_results
  rfl

/-- The row of squared center lengths the grid reads: the centers squared entry by entry, summed along each row from
    zero, the `[1000]` vector of sums laid out as a `[1, 1000]` row. -/
theorem V_v3 (c : Dev nD) :
    (V m c main_v3 : S1x1000.Idx → EReal)
      = broadcastInDim S1x1000 ![1] bcast_S1000_S1x1000_1
          (Host.reduceAdd (F := Ideal) (mulf (m ((c.tc : Thread nD τ).loc main_arg2)) (m ((c.tc : Thread nD τ).loc main_arg2)))
            (constant (F := Ideal) S_ .f32 0x00000000#32) reducesTo_S1000x512_S1000_d1 h_S_) := by
  show StableHlo.after hostOps0 (fun b => m (c, b)) (Proc.devRef .tc main_v3) = _
  after_results

/-- On the extended reals a `[1000, 512]` array summed along its rows from `init` is, at `q`, `init` plus the sum over the
    512 columns of row `q`. -/
theorem rowsum_apply (y : FVec Ideal S1000x512 .f32) (init : FVec Ideal S_ .f32) (q : Fin 1000) :
    Host.reduceAdd (F := Ideal) y init reducesTo_S1000x512_S1000_d1 h_S_ (ix1 q)
      = init (Shape.Idx.first h_S_) + ∑ k : Fin 512, y (ix2 q k) := by
  simp only [Host.reduceAdd, Ideal.hostReduceAdd_def]
  rw [Ideal.hostReduceAdd_single reducesTo_S1000x512_S1000_d1 (by decide)]
  refine congrArg (_ + ·) (Finset.sum_congr rfl fun k _ => ?_)
  exact congrArg y (funext fun a => Fin.ext (by match a with | ⟨0, _⟩ => rfl | ⟨1, _⟩ => rfl))

/-- The label window at point `t`, row `r`: the label vector's entry `1024·t + r`. -/
theorem blk_lab (c : Dev nD) (t : Fin cfg0.N) (r : Fin 1024) :
    (iblk m c 3 t : Vec Ideal S1024x1 .i32) (ix2 r (0 : Fin 1)) = m ((c.tc : Thread nD τ).loc main_arg1) (ix1 ⟨t.val * 1024 + r.val, row_lt t r⟩) := by
  unfold iblk
  rw [View.read_apply]
  show V m c main_v0 (((cfg0.win 3).blk t).view.emb (ix2 r (0 : Fin 1))) = _
  have e : (((cfg0.win 3).blk t).view.emb (ix2 r (0 : Fin 1)) : S16384x1.Idx) = ix2 ⟨t.val * 1024 + r.val, row_lt t r⟩ (0 : Fin 1) :=
    funext fun a => Fin.ext (by
      match a with
      | ⟨0, _⟩ => show win0_3.index t 0 * 1024 + 1 * r.val = t.val * 1024 + r.val; rw [(idx3 t).1]; omega
      | ⟨1, _⟩ => show win0_3.index t 1 * 1 + 1 * 0 = 0; rw [(idx3 t).2])
  refine (congrArg (V m c main_v0 : S16384x1.Idx → BitVec 32) e).trans ?_
  rw [V_v0]
  exact Cert.LibVectorColumn.shapeCast_a_a1_apply _ _ _ _

/-- The window on the row of squared center lengths at any point, entry `q`: the sum over the 512 coordinates of the square
    of center `q`'s coordinate (the product is the extended reals'). -/
theorem blk_csq (c : Dev nD) (t : Fin cfg0.N) (q : Fin 1000) :
    ((iblk m c 2 t : Vec Ideal S1x1000 .f32) (ix2 (0 : Fin 1) q) : EReal)
      = ∑ k : Fin 512, HMul.hMul (α := EReal) (β := EReal) (γ := EReal)
          (m ((c.tc : Thread nD τ).loc main_arg2) (ix2 q k)) (m ((c.tc : Thread nD τ).loc main_arg2) (ix2 q k)) := by
  unfold iblk
  rw [View.read_apply]
  show V m c main_v3 (((cfg0.win 2).blk t).view.emb (ix2 (0 : Fin 1) q)) = _
  have e : (((cfg0.win 2).blk t).view.emb (ix2 (0 : Fin 1) q) : S1x1000.Idx) = ix2 (0 : Fin 1) q :=
    funext fun a => Fin.ext (by
      match a with
      | ⟨0, _⟩ => show win0_2.index t 0 * 1 + 1 * 0 = 0; rw [(idx2 t).1]
      | ⟨1, _⟩ => show win0_2.index t 1 * 1000 + 1 * q.val = q.val; rw [(idx2 t).2]; omega)
  refine (congrArg (V m c main_v3 : S1x1000.Idx → EReal) e).trans ?_
  rw [V_v3, BroadcastRead.vector_row_apply, rowsum_apply]
  show Ideal.ofBits .f32 0x00000000#32 + _ = _
  rw [Ideal.ofBits_zero_f32, zero_add]
  exact Finset.sum_congr rfl fun k _ => rfl

end Cert.KernelIdeal.Blocks

end
-- ==== Proof.Value.lean ====
/-
  The kernel's result is the loss of the specification.

  The output array sums to the two cores' totals; each is the sum of its eight tiles' totals; a tile's total is the sum,
  over the tile's 1024 samples and the 1000 classes, of the pairs' contributions, read from the launch arrays through the
  tile's windows; and sixteen tiles of 1024 samples are all the samples.
-/
import proofs.«133789_j37495064494859_2_alg».proof.Proof.Final
import proofs.«133789_j37495064494859_2_alg».proof.Proof.SumLaws
import proofs.«133789_j37495064494859_2_alg».proof.Proof.TileTotal
import proofs.«133789_j37495064494859_2_alg».proof.Proof.Blocks

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Value

open Cert.KernelIdeal Cert.KernelIdeal.Gen Cert.KernelIdeal.Accum Cert.KernelIdeal.Final

variable (m : (ℓ : Loc nD τ sig) → Buf (Elt Ideal) ℓ) (ρ : Dev nD → PrngReg)

/-- The total of tile number `n`, zero past the grid. -/
def tileOf (c : Dev nD) (n : ℕ) : EReal := if h : n < cfg0.N then tileTot m c ⟨n, h⟩ else 0

/-- The block's running total is the running total of the tiles' totals. -/
theorem acc_eq_run8 (c : Dev nD) : ∀ (n : ℕ) (h : n < cfg0.N), acc m c n h = Cert.SumLaws.run8 (tileOf m c) n
  | 0, h => by
    show 0 + tileTot m c ⟨0, h⟩ = 0 + tileOf m c 0
    rw [tileOf, dif_pos h]
  | n + 1, h => by
    show (if (n + 1) % 8 = 0 then 0 + tileTot m c ⟨n + 1, h⟩ else acc m c n _ + tileTot m c ⟨n + 1, h⟩)
      = (if (n + 1) % 8 = 0 then 0 + tileOf m c (n + 1) else Cert.SumLaws.run8 (tileOf m c) n + tileOf m c (n + 1))
    rw [acc_eq_run8 c n, show tileOf m c (n + 1) = tileTot m c ⟨n + 1, h⟩ from dif_pos h]

/-- The output array sums to the sum of the sixteen tiles' totals. -/
theorem sum_out (c : Dev nD) : ∑ j : S16x128.Idx, outArr m c j = ∑ n ∈ Finset.range 16, tileOf m c n := by
  rw [Cert.SumLaws.sum_two_origins (acc m c 7 h7) (acc m c 15 h15) (outArr m c) (fun a b => rfl), acc_eq_run8, acc_eq_run8,
    Cert.SumLaws.run8_ends]

/-- One pair's contribution written over a tile's blocks is the pair's contribution over the launch arrays, once each
    block entry is known to be the array's entry it was read from. -/
theorem cell_of_blocks (x0 : Vec Ideal S1024x512 .f32) (x1 : Vec Ideal S1000x512 .f32) (x2 : Vec Ideal S1x1000 .f32)
    (x3 : Vec Ideal S1024x1 .i32) (X : S16384x512.Idx → EReal) (L : S16384.Idx → BitVec 32) (C : S1000x512.Idx → EReal)
    (b : Fin 16384) (r : Fin 1024) (q : Fin 1000)
    (h0 : ∀ k : Fin 512, x0 (ix2 r k) = X (ix2 b k)) (h1 : ∀ k : Fin 512, x1 (ix2 q k) = C (ix2 q k))
    (h2 : x2 (ix2 (0 : Fin 1) q) = ∑ k : Fin 512, C (ix2 q k) * C (ix2 q k)) (h3 : x3 (ix2 r (0 : Fin 1)) = L (ix1 b)) :
    Cert.Spec.cell (∑ k : Fin 512, x0 (ix2 r k) * x0 (ix2 r k)) (x2 (ix2 (0 : Fin 1) q))
        (∑ k : Fin 512, x0 (ix2 r k) * x1 (ix2 q k)) (IntOp.cmpi .eq (x3 (ix2 r (0 : Fin 1))) (BitVec.ofNat 32 q.val))
      = Cert.Spec.term X L C b q := by
  unfold Cert.Spec.term
  simp only [h0, h1, h2, h3]

/-- A tile's total from the launch arrays: its 1024 samples against the 1000 classes. -/
theorem tile_eq (c : Dev nD) (t : Fin cfg0.N) :
    tileTot m c t = ∑ r : Fin 1024, ∑ q : Fin 1000,
      Cert.Spec.term (m ((c.tc : Thread nD τ).loc main_arg0)) (m ((c.tc : Thread nD τ).loc main_arg1)) (m ((c.tc : Thread nD τ).loc main_arg2))
        ⟨t.val * 1024 + r.val, Cert.KernelIdeal.Blocks.row_lt t r⟩ q := by
  unfold tileTot
  refine (Cert.KernelIdeal.TileTotal.tile_total (iblk m c 0 t) (iblk m c 1 t) (iblk m c 2 t) (iblk m c 3 t)).trans ?_
  refine Finset.sum_congr rfl fun r _ => Finset.sum_congr rfl fun q _ => ?_
  exact cell_of_blocks (iblk m c 0 t) (iblk m c 1 t) (iblk m c 2 t) (iblk m c 3 t)
    (m ((c.tc : Thread nD τ).loc main_arg0)) (m ((c.tc : Thread nD τ).loc main_arg1)) (m ((c.tc : Thread nD τ).loc main_arg2))
    ⟨t.val * 1024 + r.val, Cert.KernelIdeal.Blocks.row_lt t r⟩ r q
    (fun k => Cert.KernelIdeal.Blocks.blk_x m c t r k) (fun k => Cert.KernelIdeal.Blocks.blk_c m c t q k)
    (Cert.KernelIdeal.Blocks.blk_csq m c t q) (Cert.KernelIdeal.Blocks.blk_lab m c t r)

/-- The sixteen tiles' totals add up to the sum over all samples and classes. -/
theorem sum_tiles_eq (c : Dev nD) :
    ∑ n ∈ Finset.range 16, tileOf m c n
      = ∑ b : Fin 16384, ∑ q : Fin 1000, Cert.Spec.term (m ((c.tc : Thread nD τ).loc main_arg0)) (m ((c.tc : Thread nD τ).loc main_arg1)) (m ((c.tc : Thread nD τ).loc main_arg2)) b q := by
  rw [← Fin.sum_univ_eq_sum_range (tileOf m c) 16,
    ← Cert.SumLaws.sum_tiles (fun b => ∑ q : Fin 1000, Cert.Spec.term (m ((c.tc : Thread nD τ).loc main_arg0)) (m ((c.tc : Thread nD τ).loc main_arg1)) (m ((c.tc : Thread nD τ).loc main_arg2)) b q)]
  refine Finset.sum_congr rfl fun t _ => ?_
  have ht : t.val < cfg0.N := by rw [show cfg0.N = 16 from N_0]; exact t.isLt
  rw [tileOf, dif_pos ht, tile_eq m c ⟨t.val, ht⟩]

/-- The kernel's result buffer ends at the loss. -/
theorem kernel_result (c : Dev nD) :
    Pipeline.afterTail₀ cfgs (dats m) 0 (V0 m) [hostOps1] c main_v6
      = fun _ => Cert.Spec.loss (m ((c.tc : Thread nD τ).loc main_arg0)) (m ((c.tc : Thread nD τ).loc main_arg1)) (m ((c.tc : Thread nD τ).loc main_arg2)) := by
  rw [tail_eq, sum_out, sum_tiles_eq]
  rfl

/-- The kernel's run, read: the result at the loss of the launch arrays, the arguments unchanged. -/
theorem run : θ_run defs (onTc (τ := τ) (main (F := Ideal))) ⟨m, fun _ => 0, ρ⟩ (fun r => ∀ c : Dev nD,
      r.2.mem ((c.tc : Thread nD τ).loc main_v6) = (fun _ => Cert.Spec.loss (m ((c.tc : Thread nD τ).loc main_arg0)) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v6 (Pipeline.mem_restRefs_of main_v6 (by decide) (by decide))).trans (kernel_result m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c)))⟩)
    (run_main m ρ)

end Cert.KernelIdeal.Value

end
-- ==== Proof.RefValue.lean ====
/-
  The reference program's result is the loss of the specification.

  The reference forms, for every pair (b, q) of a sample and a class, the squared distance
  |x_b|² + |c_q|² - 2·(x_b · c_q), multiplies it by the comparison bit "the label of b is q" made a number,
  clips the product into [lo, hi], adds all pairs up from zero and divides by the number of samples.
  Read at the pair (b, q) the clipped product is the specification's contribution of that pair: the row sums
  start from zero, the broadcasts read the row b of the samples and the row q of the centers, the class
  numbers 0 … 999 along the second axis are the words of q, and clipping after masking is selecting after
  clipping.  The sum over the pairs' index set is the double sum over samples and classes.
-/
import proofs.«133789_j37495064494859_2_alg».proof.Proof.Gen.ReferenceIdeal.Read
import proofs.«133789_j37495064494859_2_alg».proof.Proof.Spec
import Idealize.ShloMosaic.Lib.ValueIdx
import Idealize.ShloMosaic.PureOps.Ideal
import Idealize.ShloMosaic.PureOps.Ideal.Laws

noncomputable section

namespace Cert.RefValue

open Cert.ReferenceIdeal Idealize.ShloMosaic Idealize.ShloMosaic.ValueIdx

/-! ## Where the broadcasts, the transpose and the contraction read -/

/-- The samples' squared norms, broadcast along the classes, are read at the sample b. -/
theorem idx_norm_x (b : Fin 16384) (q : Fin 1000) :
    Read.idx_main_v2 (Read.idx_main_v6 (ix2 b q)) = ix1 b :=
  funext fun a => Fin.ext (by match a with | ⟨0, _⟩ => rfl)

/-- The k-th summand of the sample b's squared norm sits at (b, k). -/
theorem idx_row_x (b : Fin 16384) (k : Fin 512) : Read.idx_main_v1 (ix1 b) k = ix2 b k :=
  funext fun a => Fin.ext (by match a with | ⟨0, _⟩ => rfl | ⟨1, _⟩ => rfl)

/-- The centers' squared norms, broadcast along the samples, are read at the class q. -/
theorem idx_norm_c (b : Fin 16384) (q : Fin 1000) :
    Read.idx_main_v5 (Read.idx_main_v7 (ix2 b q)) = ix1 q :=
  funext fun a => Fin.ext (by match a with | ⟨0, _⟩ => rfl)

/-- The k-th summand of the center q's squared norm sits at (q, k). -/
theorem idx_row_c (q : Fin 1000) (k : Fin 512) : Read.idx_main_v4 (ix1 q) k = ix2 q k :=
  funext fun a => Fin.ext (by match a with | ⟨0, _⟩ => rfl | ⟨1, _⟩ => rfl)

/-- The contraction's left factor at the pair (b, q) and the position k is the sample's entry (b, k). -/
theorem idx_dot_x (b : Fin 16384) (q : Fin 1000) (k : Fin 512) :
    Read.lidx_main_v10 (ix2 b q) k = ix2 b k :=
  funext fun a => Fin.ext (by match a with | ⟨0, _⟩ => rfl | ⟨1, _⟩ => rfl)

/-- The contraction's right factor, through the transpose, is the center's entry (q, k). -/
theorem idx_dot_c (b : Fin 16384) (q : Fin 1000) (k : Fin 512) :
    Read.idx_main_v9 (Read.ridx_main_v10 (ix2 b q) k) = ix2 q k :=
  funext fun a => Fin.ext (by match a with | ⟨0, _⟩ => rfl | ⟨1, _⟩ => rfl)

/-- The labels, broadcast along the classes, are read at the sample b. -/
theorem idx_label (b : Fin 16384) (q : Fin 1000) :
    Read.idx_main_v14 (Read.idx_main_v17 (ix2 b q)) = ix1 b :=
  funext fun a => Fin.ext (by match a with | ⟨0, _⟩ => rfl)

/-- The class numbers, broadcast along the samples, are read at the class q. -/
theorem idx_class (b : Fin 16384) (q : Fin 1000) :
    Read.idx_main_v16 (Read.idx_main_v18 (ix2 b q)) = ix1 q :=
  funext fun a => Fin.ext (by match a with | ⟨0, _⟩ => rfl)

/-! ## One pair -/

/-- The sample b's squared norm: the row sum starts from zero. -/
theorem norm_x (x0 : (⟨S16384x512, .f32⟩ : BufTy).Contents (Elt Ideal)) (b : Fin 16384) :
    Read.val_main_v1 (F := Ideal) x0 (ix1 b) = ∑ k : Fin 512, x0 (ix2 b k) * x0 (ix2 b k) := by
  rw [Read.val_main_v1_apply, Read.val_main_cst_apply, Ideal.ofBits_def, Ideal.ofBits_zero_f32, zero_add]
  refine Finset.sum_congr rfl fun k _ => ?_
  rw [Read.val_main_v0_apply, idx_row_x, Ideal.mulf_def]

/-- The center q's squared norm: the row sum starts from zero. -/
theorem norm_c (x2 : (⟨S1000x512, .f32⟩ : BufTy).Contents (Elt Ideal)) (q : Fin 1000) :
    Read.val_main_v4 (F := Ideal) x2 (ix1 q) = ∑ k : Fin 512, x2 (ix2 q k) * x2 (ix2 q k) := by
  rw [Read.val_main_v4_apply, Read.val_main_cst_0_apply, Ideal.ofBits_def, Ideal.ofBits_zero_f32, zero_add]
  refine Finset.sum_congr rfl fun k _ => ?_
  rw [Read.val_main_v3_apply, idx_row_c, Ideal.mulf_def]

/-- The inner product of the sample b and the center q. -/
theorem dot_xc (x0 : (⟨S16384x512, .f32⟩ : BufTy).Contents (Elt Ideal))
    (x2 : (⟨S1000x512, .f32⟩ : BufTy).Contents (Elt Ideal)) (b : Fin 16384) (q : Fin 1000) :
    Read.val_main_v10 (F := Ideal) x0 x2 (ix2 b q) = ∑ k : Fin 512, x0 (ix2 b k) * x2 (ix2 q k) := by
  rw [Read.val_main_v10_apply]
  refine Finset.sum_congr rfl fun k _ => ?_
  rw [Read.val_main_v9_apply, idx_dot_x, idx_dot_c]

/-- The squared distance of the sample b and the center q. -/
theorem dist (x0 : (⟨S16384x512, .f32⟩ : BufTy).Contents (Elt Ideal))
    (x2 : (⟨S1000x512, .f32⟩ : BufTy).Contents (Elt Ideal)) (b : Fin 16384) (q : Fin 1000) :
    Read.val_main_v13 (F := Ideal) x0 x2 (ix2 b q)
      = ((∑ k : Fin 512, x0 (ix2 b k) * x0 (ix2 b k)) + (∑ k : Fin 512, x2 (ix2 q k) * x2 (ix2 q k)))
          - Cert.Spec.two * (∑ k : Fin 512, x0 (ix2 b k) * x2 (ix2 q k)) := by
  rw [Read.val_main_v13_apply, Read.val_main_v8_apply, Read.val_main_v12_apply, Read.val_main_v6_apply,
    Read.val_main_v2_apply, idx_norm_x, norm_x, Read.val_main_v7_apply, Read.val_main_v5_apply, idx_norm_c, norm_c,
    Read.val_main_v11_apply, Read.val_main_cst_1_apply, dot_xc, Ideal.subf_def, Ideal.addf_def, Ideal.mulf_def,
    Ideal.ofBits_def]

/-- The comparison bit of the pair (b, q): the label of b against the word of q. -/
theorem bit (x1 : (⟨S16384, .i32⟩ : BufTy).Contents (Elt Ideal)) (b : Fin 16384) (q : Fin 1000) :
    Read.val_main_v19 (F := Ideal) x1 (ix2 b q) = IntOp.cmpi .eq (x1 (ix1 b)) (BitVec.ofNat 32 q.val) := by
  rw [Read.val_main_v19_apply, Read.val_main_v17_apply, Read.val_main_v14_apply, idx_label, Read.val_main_v18_apply,
    Read.val_main_v16_apply, idx_class, Read.val_main_v15_apply]

/-- The clipped masked distance of the pair (b, q) is the specification's contribution of that pair. -/
theorem pair (x0 : (⟨S16384x512, .f32⟩ : BufTy).Contents (Elt Ideal)) (x1 : (⟨S16384, .i32⟩ : BufTy).Contents (Elt Ideal))
    (x2 : (⟨S1000x512, .f32⟩ : BufTy).Contents (Elt Ideal)) (b : Fin 16384) (q : Fin 1000) :
    Read.val_main_v22 (F := Ideal) x0 x1 x2 (ix2 b q) = Cert.Spec.term x0 x1 x2 b q := by
  rw [Read.val_main_v22_apply, Read.val_main_call0_v4_apply, Read.val_main_call0_v3_apply, Read.val_main_cst_3_apply,
    Read.val_main_call0_v2_apply, Read.val_main_call0_v1_apply, Read.val_main_call0_v0_apply, Read.val_main_cst_2_apply,
    Read.val_main_v21_apply, dist, Read.val_main_v20_apply, bit, Ideal.minimumf_def, Ideal.maximumf_def, Ideal.mulf_def,
    Ideal.ofBits_def, Ideal.ofBits_def]
  exact Cert.Spec.clip_mask _ _

/-! ## The whole result -/

/-- The reference's result is the loss. -/
theorem ref_eq (x0 : (⟨S16384x512, .f32⟩ : BufTy).Contents (Elt Ideal)) (x1 : (⟨S16384, .i32⟩ : BufTy).Contents (Elt Ideal))
    (x2 : (⟨S1000x512, .f32⟩ : BufTy).Contents (Elt Ideal)) :
    Cert.ReferenceIdeal.Read.val_main_v24 (F := Ideal) x0 x1 x2 = fun _ => Cert.Spec.loss x0 x1 x2 := by
  funext i
  rw [Read.val_main_v24_apply, Read.val_main_v23_apply, Read.val_main_cst_4_apply, Read.val_main_cst_5_apply,
    Ideal.hostDivf_def, Ideal.ofBits_def, Ideal.ofBits_def, Ideal.ofBits_zero_f32, zero_add, sum_idx2]
  simp only [pair]
  rfl

end Cert.RefValue

end
-- ==== Proof.lean ====
/-
  The certificate's claims.

  Both programs compute the center loss: for every sample and class the squared distance, clipped into [lo, hi] when the
  class is the sample's label and replaced by lo otherwise, summed over all pairs and divided by the number of samples.
  The kernel takes the sum tile by tile, sixteen tiles of 1024 samples accumulated in two output blocks that the host then
  adds up; the reference takes it at once, masking before clipping.  On the extended reals the two results are one number:
  addition is commutative and associative there, and masking then clipping is selecting after clipping because a product
  with zero is zero, zero clips up to lo, and lo lies below hi.  The three frame claims are the programs' runs with their
  results forgotten; the idealization rewrote nothing.
-/
import proofs.«133789_j37495064494859_2_alg».proof.Defs
import proofs.«133789_j37495064494859_2_alg».proof.Proof.Gen.Kernel
import proofs.«133789_j37495064494859_2_alg».proof.Proof.Gen.Kernel.Frame
import proofs.«133789_j37495064494859_2_alg».proof.Proof.Gen.KernelIdeal
import proofs.«133789_j37495064494859_2_alg».proof.Proof.Gen.KernelIdeal.Frame
import proofs.«133789_j37495064494859_2_alg».proof.Proof.Gen.ReferenceIdeal
import proofs.«133789_j37495064494859_2_alg».proof.Proof.Gen.ReferenceIdeal.Run
import proofs.«133789_j37495064494859_2_alg».proof.Proof.Gen.ReferenceIdeal.Read
import proofs.«133789_j37495064494859_2_alg».proof.Proof.Gen.Pre_finite_inputs
import proofs.«133789_j37495064494859_2_alg».proof.Proof.Value
import proofs.«133789_j37495064494859_2_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments both idealized programs end with the loss of those arguments. -/
theorem algebraic : Cert.algebraic_KernelIdeal_ReferenceIdeal := by
  intro m ρ m' ρ' _ hagree
  refine ⟨_, Cert.KernelIdeal.Value.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v24_eq, Cert.RefValue.ref_eq, (hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
